-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S2x256x56x56 : Shape := ⟨4, ![2, 256, 56, 56]⟩
abbrev S2x51x56x56 : Shape := ⟨4, ![2, 51, 56, 56]⟩
abbrev S2x52x56x56 : Shape := ⟨4, ![2, 52, 56, 56]⟩
abbrev S2x51x1x56 : Shape := ⟨4, ![2, 51, 1, 56]⟩
abbrev S2x51x55x56 : Shape := ⟨4, ![2, 51, 55, 56]⟩
abbrev S2x51x56x1 : Shape := ⟨4, ![2, 51, 56, 1]⟩
abbrev S2x51x56x55 : Shape := ⟨4, ![2, 51, 56, 55]⟩

abbrev nBuf : Space → Nat
  | .hbm => 2
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S2x256x56x56, .f32⟩
  | .local _ .vmem, ⟨3, _⟩ => ⟨S2x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x256x56x56_S2x51x56x56_0_0_0_0 : ∀ a, (![0, 0, 0, 0] : Fin 4 → Nat) a + S2x51x56x56.size a ≤ S2x256x56x56.size a
  h_S2x51x56x56 : 0 < S2x51x56x56.numel
  inb_S2x256x56x56_S2x51x56x56_0_51_0_0 : ∀ a, (![0, 51, 0, 0] : Fin 4 → Nat) a + S2x51x56x56.size a ≤ S2x256x56x56.size a
  inb_S2x256x56x56_S2x51x56x56_0_102_0_0 : ∀ a, (![0, 102, 0, 0] : Fin 4 → Nat) a + S2x51x56x56.size a ≤ S2x256x56x56.size a
  inb_S2x256x56x56_S2x51x56x56_0_153_0_0 : ∀ a, (![0, 153, 0, 0] : Fin 4 → Nat) a + S2x51x56x56.size a ≤ S2x256x56x56.size a
  inb_S2x256x56x56_S2x52x56x56_0_204_0_0 : ∀ a, (![0, 204, 0, 0] : Fin 4 → Nat) a + S2x52x56x56.size a ≤ S2x256x56x56.size a
  h_S2x52x56x56 : 0 < S2x52x56x56.numel
  slices_S2x51x56x56_o0_0_0_0_S2x51x55x56 : S2x51x56x56.Slices ![0, 0, 0, 0] S2x51x55x56
  concatenates_S2x51x1x56_S2x51x55x56_S2x51x56x56_d2 : Shape.Concatenates [S2x51x1x56, S2x51x55x56] S2x51x56x56 2
  slices_S2x51x56x56_o0_0_0_1_S2x51x56x55 : S2x51x56x56.Slices ![0, 0, 0, 1] S2x51x56x55
  concatenates_S2x51x56x55_S2x51x56x1_S2x51x56x56_d3 : Shape.Concatenates [S2x51x56x55, S2x51x56x1] S2x51x56x56 3
  slices_S2x51x56x56_o0_0_1_0_S2x51x55x56 : S2x51x56x56.Slices ![0, 0, 1, 0] S2x51x55x56
  concatenates_S2x51x55x56_S2x51x1x56_S2x51x56x56_d2 : Shape.Concatenates [S2x51x55x56, S2x51x1x56] S2x51x56x56 2
  slices_S2x51x56x56_o0_0_0_0_S2x51x56x55 : S2x51x56x56.Slices ![0, 0, 0, 0] S2x51x56x55
  concatenates_S2x51x56x1_S2x51x56x55_S2x51x56x56_d3 : Shape.Concatenates [S2x51x56x1, S2x51x56x55] S2x51x56x56 3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x56x56.size a ≤ S64x256x56x56.size a
  hwx0_1 : ∀ i : grid0.Coords, EltTy.bits .f32 = 32 ∨ (Rect.block (s := S64x256x56x56) S2x256x56x56.size (cc0_transform_1 i) (hinb0_1 i)).WholeWords (EltTy.packing .f32)

variable [Facts₀]

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x256x56x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64x51x56x56 : Shape := ⟨4, ![64, 51, 56, 56]⟩
abbrev S64x52x56x56 : Shape := ⟨4, ![64, 52, 56, 56]⟩
abbrev S64x51x1x56 : Shape := ⟨4, ![64, 51, 1, 56]⟩
abbrev S64x51x55x56 : Shape := ⟨4, ![64, 51, 55, 56]⟩
abbrev S_ : Shape := ⟨0, ![]⟩
abbrev S1 : Shape := ⟨1, ![1]⟩
abbrev S64x51x56 : Shape := ⟨3, ![64, 51, 56]⟩
abbrev S64x51x56x55 : Shape := ⟨4, ![64, 51, 56, 55]⟩
abbrev S64x51x56x1 : Shape := ⟨4, ![64, 51, 56, 1]⟩

abbrev nBuf : Space → Nat
  | .hbm => 39
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64x51x56x56, .f32⟩
  | .hbm, ⟨2, _⟩ => ⟨S64x51x56x56, .f32⟩
  | .hbm, ⟨3, _⟩ => ⟨S64x51x56x56, .f32⟩
  | .hbm, ⟨4, _⟩ => ⟨S64x51x56x56, .f32⟩
  | .hbm, ⟨5, _⟩ => ⟨S64x52x56x56, .f32⟩
  | .hbm, ⟨6, _⟩ => ⟨S64x51x1x56, .f32⟩
  | .hbm, ⟨7, _⟩ => ⟨S64x51x55x56, .f32⟩
  | .hbm, ⟨8, _⟩ => ⟨S64x51x56x56, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S64x51x56, .f32⟩
  | .hbm, ⟨13, _⟩ => ⟨S64x51x56x56, .f32⟩
  | .hbm, ⟨14, _⟩ => ⟨S64x51x56x55, .f32⟩
  | .hbm, ⟨15, _⟩ => ⟨S64x51x56x1, .f32⟩
  | .hbm, ⟨16, _⟩ => ⟨S64x51x56x56, .f32⟩
  | .hbm, ⟨17, _⟩ => ⟨S_, .i32⟩
  | .hbm, ⟨18, _⟩ => ⟨S1, .i32⟩
  | .hbm, ⟨19, _⟩ => ⟨S_, .f32⟩
  | .hbm, ⟨20, _⟩ => ⟨S64x51x56, .f32⟩
  | .hbm, ⟨21, _⟩ => ⟨S64x51x56x56, .f32⟩
  | .hbm, ⟨22, _⟩ => ⟨S64x51x55x56, .f32⟩
  | .hbm, ⟨23, _⟩ => ⟨S64x51x1x56, .f32⟩
  | .hbm, ⟨24, _⟩ => ⟨S64x51x56x56, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S64x51x56, .f32⟩
  | .hbm, ⟨29, _⟩ => ⟨S64x51x56x56, .f32⟩
  | .hbm, ⟨30, _⟩ => ⟨S64x51x56x1, .f32⟩
  | .hbm, ⟨31, _⟩ => ⟨S64x51x56x55, .f32⟩
  | .hbm, ⟨32, _⟩ => ⟨S64x51x56x56, .f32⟩
  | .hbm, ⟨33, _⟩ => ⟨S_, .i32⟩
  | .hbm, ⟨34, _⟩ => ⟨S1, .i32⟩
  | .hbm, ⟨35, _⟩ => ⟨S_, .f32⟩
  | .hbm, ⟨36, _⟩ => ⟨S64x51x56, .f32⟩
  | .hbm, ⟨37, _⟩ => ⟨S64x51x56x56, .f32⟩
  | .hbm, ⟨38, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_call0_v0 : Ref sig .tc := ⟨.hbm, 6, rfl⟩
abbrev main_call0_v1 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_call1_v0 : Ref sig .tc := ⟨.hbm, 14, rfl⟩
abbrev main_call1_v1 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_call2_v0 : Ref sig .tc := ⟨.hbm, 22, rfl⟩
abbrev main_call2_v1 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_call3_v0 : Ref sig .tc := ⟨.hbm, 30, rfl⟩
abbrev main_call3_v1 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]

class Facts₀ : Prop where
  slices_S64x256x56x56_S64x51x56x56_0_0_0_0 : S64x256x56x56.Slices ![0, 0, 0, 0] S64x51x56x56
  slices_S64x256x56x56_S64x51x56x56_0_51_0_0 : S64x256x56x56.Slices ![0, 51, 0, 0] S64x51x56x56
  slices_S64x256x56x56_S64x51x56x56_0_102_0_0 : S64x256x56x56.Slices ![0, 102, 0, 0] S64x51x56x56
  slices_S64x256x56x56_S64x51x56x56_0_153_0_0 : S64x256x56x56.Slices ![0, 153, 0, 0] S64x51x56x56
  slices_S64x256x56x56_S64x52x56x56_0_204_0_0 : S64x256x56x56.Slices ![0, 204, 0, 0] S64x52x56x56
  slices_S64x51x56x56_S64x51x1x56_0_0_55_0 : S64x51x56x56.Slices ![0, 0, 55, 0] S64x51x1x56
  slices_S64x51x56x56_S64x51x55x56_0_0_0_0 : S64x51x56x56.Slices ![0, 0, 0, 0] S64x51x55x56
  concatenates_S64x51x1x56_S64x51x55x56_S64x51x56x56_d2 : Shape.Concatenates [S64x51x1x56, S64x51x55x56] S64x51x56x56 2
  bcast_S_S1 : S_.BroadcastsInDim S1 (![] : Fin 0 → Fin S1.rank)
  bcast_S_S64x51x56 : S_.BroadcastsInDim S64x51x56 (![] : Fin 0 → Fin S64x51x56.rank)
  slices_S64x51x56x56_S64x51x56x55_0_0_0_1 : S64x51x56x56.Slices ![0, 0, 0, 1] S64x51x56x55
  slices_S64x51x56x56_S64x51x56x1_0_0_0_0 : S64x51x56x56.Slices ![0, 0, 0, 0] S64x51x56x1
  concatenates_S64x51x56x55_S64x51x56x1_S64x51x56x56_d3 : Shape.Concatenates [S64x51x56x55, S64x51x56x1] S64x51x56x56 3
  slices_S64x51x56x56_S64x51x55x56_0_0_1_0 : S64x51x56x56.Slices ![0, 0, 1, 0] S64x51x55x56
  slices_S64x51x56x56_S64x51x1x56_0_0_0_0 : S64x51x56x56.Slices ![0, 0, 0, 0] S64x51x1x56
  concatenates_S64x51x55x56_S64x51x1x56_S64x51x56x56_d2 : Shape.Concatenates [S64x51x55x56, S64x51x1x56] S64x51x56x56 2
  slices_S64x51x56x56_S64x51x56x1_0_0_0_55 : S64x51x56x56.Slices ![0, 0, 0, 55] S64x51x56x1
  slices_S64x51x56x56_S64x51x56x55_0_0_0_0 : S64x51x56x56.Slices ![0, 0, 0, 0] S64x51x56x55
  concatenates_S64x51x56x1_S64x51x56x55_S64x51x56x56_d3 : Shape.Concatenates [S64x51x56x1, S64x51x56x55] S64x51x56x56 3
  concatenates_S64x51x56x56_S64x51x56x56_S64x51x56x56_S64x51x56x56_S64x52x56x56_S64x256x56x56_d1 : Shape.Concatenates [S64x51x56x56, S64x51x56x56, S64x51x56x56, S64x51x56x56, S64x52x56x56] S64x256x56x56 1
  scatter_S64x51x56x56_S1_S64x51x56_012_2_2_0_wf : ScatterDims.WF S64x51x56x56 S1 S64x51x56 [0, 1, 2] [2] [2] 0
  scatter_S64x51x56x56_S1_S64x51x56_012_3_3_0_wf : ScatterDims.WF S64x51x56x56 S1 S64x51x56 [0, 1, 2] [3] [3] 0

variable [Facts₀]

def scatter_S64x51x56x56_S1_S64x51x56_012_2_2_0 : ScatterDims S64x51x56x56 S1 S64x51x56 where
  updateWindowDims := [0, 1, 2]
  insertedWindowDims := [2]
  scatterDimsToOperandDims := [2]
  indexVectorDim := 0
  wf := scatter_S64x51x56x56_S1_S64x51x56_012_2_2_0_wf
def scatter_S64x51x56x56_S1_S64x51x56_012_3_3_0 : ScatterDims S64x51x56x56 S1 S64x51x56 where
  updateWindowDims := [0, 1, 2]
  insertedWindowDims := [3]
  scatterDimsToOperandDims := [3]
  indexVectorDim := 0
  wf := scatter_S64x51x56x56_S1_S64x51x56_012_3_3_0_wf

class Facts : Prop extends Facts₀ where

variable [Facts]
-- ==== Proof.ShiftSpec.lean ====
/-
  The channel-grouped spatial shift, as one function of the input.

  An image is an array [256, 56, 56] (channel, row, column). Its 256 channels fall into five groups:
  channels 0-50, 51-101, 102-152, 153-203 and 204-255. The shifted image holds, at (c, h, w),

    * group 0: the input one row UP, (c, h - 1, w), and the value `z` on the first row (h = 0);
    * group 1: the input one column to the RIGHT, (c, h, w + 1), and `z` on the last column (w = 55);
    * group 2: the input one row DOWN, (c, h + 1, w), and `z` on the last row (h = 55);
    * group 3: the input one column to the LEFT, (c, h, w - 1), and `z` on the first column (w = 0);
    * group 4: the input itself.

  `shiftAt` is that function of one image; `shifted` applies it to every image of a batch [nB, 256, 56, 56].
  No arithmetic is done on the elements, so the element type is arbitrary.
-/
import Idealize.ShloMosaic.Lib.ValueIdx

namespace Cert.Shift

open Idealize.ShloMosaic Idealize.ShloMosaic.ValueIdx

variable {α : Type}

/-- The shifted image at channel `c`, row `h`, column `w`: the neighbour its channel group names, or `z` on that
    group's border. -/
def shiftAt (z : α) (x : Fin 256 → Fin 56 → Fin 56 → α) (c : Fin 256) (h w : Fin 56) : α :=
  if c.val < 51 then
    (if hh : h.val = 0 then z else x c ⟨h.val - 1, by have := h.isLt; omega⟩ w)
  else if c.val < 102 then
    (if hw : w.val = 55 then z else x c h ⟨w.val + 1, by have := w.isLt; omega⟩)
  else if c.val < 153 then
    (if hh : h.val = 55 then z else x c ⟨h.val + 1, by have := h.isLt; omega⟩ w)
  else if c.val < 204 then
    (if hw : w.val = 0 then z else x c h ⟨w.val - 1, by have := w.isLt; omega⟩)
  else x c h w

/-- Image `b` of a batch, as a function of channel, row and column. -/
def image {nB : Nat} (X : (⟨4, ![nB, 256, 56, 56]⟩ : Shape).Idx → α) (b : Fin nB) : Fin 256 → Fin 56 → Fin 56 → α :=
  fun c h w => X (ix4 b c h w)

/-- Every image of the batch shifted. -/
def shifted (nB : Nat) (z : α) (X : (⟨4, ![nB, 256, 56, 56]⟩ : Shape).Idx → α) :
    (⟨4, ![nB, 256, 56, 56]⟩ : Shape).Idx → α :=
  fun i => shiftAt z (image X (i 0)) (i 1) (i 2) (i 3)

theorem shifted_ix4 (nB : Nat) (z : α) (X : (⟨4, ![nB, 256, 56, 56]⟩ : Shape).Idx → α)
    (b : Fin nB) (c : Fin 256) (h w : Fin 56) :
    shifted nB z X (ix4 b c h w) = shiftAt z (image X b) c h w := rfl

/-- In group 0 (channels below 51). -/
theorem shiftAt_group0 (z : α) (x : Fin 256 → Fin 56 → Fin 56 → α) (c : Fin 256) (h w : Fin 56) (hc : c.val < 51) :
    shiftAt z x c h w = if hh : h.val = 0 then z else x c ⟨h.val - 1, by have := h.isLt; omega⟩ w := by
  unfold shiftAt; rw [if_pos hc]

/-- In group 1 (channels 51 to 101). -/
theorem shiftAt_group1 (z : α) (x : Fin 256 → Fin 56 → Fin 56 → α) (c : Fin 256) (h w : Fin 56)
    (hc0 : 51 ≤ c.val) (hc : c.val < 102) :
    shiftAt z x c h w = if hw : w.val = 55 then z else x c h ⟨w.val + 1, by have := w.isLt; omega⟩ := by
  unfold shiftAt; rw [if_neg (by omega), if_pos hc]

/-- In group 2 (channels 102 to 152). -/
theorem shiftAt_group2 (z : α) (x : Fin 256 → Fin 56 → Fin 56 → α) (c : Fin 256) (h w : Fin 56)
    (hc0 : 102 ≤ c.val) (hc : c.val < 153) :
    shiftAt z x c h w = if hh : h.val = 55 then z else x c ⟨h.val + 1, by have := h.isLt; omega⟩ w := by
  unfold shiftAt; rw [if_neg (by omega), if_neg (by omega), if_pos hc]

/-- In group 3 (channels 153 to 203). -/
theorem shiftAt_group3 (z : α) (x : Fin 256 → Fin 56 → Fin 56 → α) (c : Fin 256) (h w : Fin 56)
    (hc0 : 153 ≤ c.val) (hc : c.val < 204) :
    shiftAt z x c h w = if hw : w.val = 0 then z else x c h ⟨w.val - 1, by have := w.isLt; omega⟩ := by
  unfold shiftAt; rw [if_neg (by omega), if_neg (by omega), if_neg (by omega), if_pos hc]

/-- In group 4 (channels from 204 on). -/
theorem shiftAt_group4 (z : α) (x : Fin 256 → Fin 56 → Fin 56 → α) (c : Fin 256) (h w : Fin 56) (hc0 : 204 ≤ c.val) :
    shiftAt z x c h w = x c h w := by
  unfold shiftAt; rw [if_neg (by omega), if_neg (by omega), if_neg (by omega), if_neg (by omega)]

/-- The shift works image by image: where image `b` of one batch is image `b'` of another, so are their shifts. -/
theorem shifted_of_image {nB nB' : Nat} (z : α) (Y : (⟨4, ![nB, 256, 56, 56]⟩ : Shape).Idx → α)
    (X : (⟨4, ![nB', 256, 56, 56]⟩ : Shape).Idx → α) (b : Fin nB) (b' : Fin nB')
    (hY : ∀ c h w, Y (ix4 b c h w) = X (ix4 b' c h w)) (c : Fin 256) (h w : Fin 56) :
    shifted nB z Y (ix4 b c h w) = shifted nB' z X (ix4 b' c h w) := by
  rw [shifted_ix4, shifted_ix4]
  have e : image Y b = image X b' := funext fun c => funext fun h => funext fun w => hY c h w
  rw [e]

/-- A channel inside the group that starts at `o` and has `n` channels is `o` plus a channel of the group. -/
theorem chan_split (o n : Nat) (ho : o + n ≤ 256) (c : Fin 256) (h1 : o ≤ c.val) (h2 : c.val < o + n) :
    ∃ c' : Fin n, c = ⟨o + c'.val, Nat.lt_of_lt_of_le (Nat.add_lt_add_left c'.isLt o) ho⟩ :=
  ⟨⟨c.val - o, by omega⟩, Fin.ext (by show c.val = o + (c.val - o); omega)⟩

/-! ## A channel group as a slab

Both programs work group by group: they cut the `n` channels from `o` on out of the batch (a slab
[nB, n, 56, 56]), shift the slab, and put the result back at channels `o` to `o + n - 1`. The five lemmas below
say that the shifted batch, on the channels of a group, is the group's shift of the group's slab. -/

/-- The `n` channels from `o` on, of every image. -/
def slab {nB : Nat} (o n : Nat) (ho : o + n ≤ 256) (X : (⟨4, ![nB, 256, 56, 56]⟩ : Shape).Idx → α) :
    (⟨4, ![nB, n, 56, 56]⟩ : Shape).Idx → α :=
  fun y => X (ix4 (y 0) ⟨o + (y 1).val, by have h : (y 1).val < n := (y 1).isLt; omega⟩ (y 2) (y 3))

theorem slab_ix4 {nB : Nat} (o n : Nat) (ho : o + n ≤ 256) (X : (⟨4, ![nB, 256, 56, 56]⟩ : Shape).Idx → α)
    (b : Fin nB) (c : Fin n) (h w : Fin 56) :
    slab o n ho X (ix4 b c h w) = X (ix4 b ⟨o + c.val, by have := c.isLt; omega⟩ h w) := rfl

variable {nB : Nat} (z : α) (X : (⟨4, ![nB, 256, 56, 56]⟩ : Shape).Idx → α) (b : Fin nB) (c : Fin 51) (h w : Fin 56)

/-- Group 0: the slab of channels 0-50 with `z` on row 0 and its row h - 1 below. -/
theorem shifted_group0 :
    shifted nB z X (ix4 b ⟨0 + c.val, by have := c.isLt; omega⟩ h w)
      = if hh : h.val = 0 then z else slab 0 51 (by omega) X (ix4 b c ⟨h.val - 1, by have := h.isLt; omega⟩ w) := by
  rw [shifted_ix4, shiftAt_group0 _ _ _ _ _ (by show 0 + c.val < 51; have := c.isLt; omega)]
  rfl

/-- Group 1: the slab of channels 51-101 with `z` on column 55 and its column w + 1 left of it. -/
theorem shifted_group1 :
    shifted nB z X (ix4 b ⟨51 + c.val, by have := c.isLt; omega⟩ h w)
      = if hw : w.val = 55 then z else slab 51 51 (by omega) X (ix4 b c h ⟨w.val + 1, by have := w.isLt; omega⟩) := by
  rw [shifted_ix4, shiftAt_group1 _ _ _ _ _ (by show 51 ≤ 51 + c.val; omega) (by show 51 + c.val < 102; have := c.isLt; omega)]
  rfl

/-- Group 2: the slab of channels 102-152 with `z` on row 55 and its row h + 1 above. -/
theorem shifted_group2 :
    shifted nB z X (ix4 b ⟨102 + c.val, by have := c.isLt; omega⟩ h w)
      = if hh : h.val = 55 then z else slab 102 51 (by omega) X (ix4 b c ⟨h.val + 1, by have := h.isLt; omega⟩ w) := by
  rw [shifted_ix4, shiftAt_group2 _ _ _ _ _ (by show 102 ≤ 102 + c.val; omega) (by show 102 + c.val < 153; have := c.isLt; omega)]
  rfl

/-- Group 3: the slab of channels 153-203 with `z` on column 0 and its column w - 1 right of it. -/
theorem shifted_group3 :
    shifted nB z X (ix4 b ⟨153 + c.val, by have := c.isLt; omega⟩ h w)
      = if hw : w.val = 0 then z else slab 153 51 (by omega) X (ix4 b c h ⟨w.val - 1, by have := w.isLt; omega⟩) := by
  rw [shifted_ix4, shiftAt_group3 _ _ _ _ _ (by show 153 ≤ 153 + c.val; omega) (by show 153 + c.val < 204; have := c.isLt; omega)]
  rfl

/-- Group 4: the slab of channels 204-255, as it is. -/
theorem shifted_group4 (c' : Fin 52) :
    shifted nB z X (ix4 b ⟨204 + c'.val, by have := c'.isLt; omega⟩ h w) = slab 204 52 (by omega) X (ix4 b c' h w) := by
  rw [shifted_ix4, shiftAt_group4 _ _ _ _ _ (by show 204 ≤ 204 + c'.val; omega)]
  rfl

end Cert.Shift
-- ==== Proof.SlabShift.lean ====
/-
  A slab [nB, 51, 56, 56] joined, along a spatial axis, from a strip of extent one and 55 rows (or columns) cut out
  of another slab `v` — the shape of both programs' shifts: the kernel joins a constant strip to the rows it keeps,
  the host's roll joins the wrapped-around row to them.

  Away from the strip the joined slab is `v` one step along the axis, whatever the strip holds:

    * `afterStripRows`  : [strip, rows 0-54]    at row h > 0      is `v` at (b, c, h - 1, w);
    * `beforeStripCols` : [columns 1-55, strip] at column w < 55  is `v` at (b, c, h, w + 1);
    * `beforeStripRows` : [rows 1-55, strip]    at row h < 55     is `v` at (b, c, h + 1, w);
    * `afterStripCols`  : [strip, columns 0-54] at column w > 0   is `v` at (b, c, h, w - 1).

  On the strip it is the strip; with a constant strip `z` (the kernel's zero padding) the four joins read, at
  (b, c, h, w), `z` on the border and `v`'s neighbour elsewhere: `padTop`, `padRight`, `padBottom`, `padLeft`.

  The batch extent `nB` is arbitrary; the shape relations the two operations ask for are hypotheses.
-/
import Idealize.ShloMosaic.Lib.ValueIdx
import Idealize.ShloMosaic.Lib.Pipeline.Value

namespace Cert.Shift

open Idealize.ShloMosaic Idealize.ShloMosaic.ValueIdx

variable {α : Type} {nB : Nat}

/-! ## Away from the strip -/

/-- Strip first along the rows: row h > 0 is `v`'s row h - 1. -/
theorem afterStripRows_apply (y : (⟨4, ![nB, 51, 1, 56]⟩ : Shape).Idx → α) (v : (⟨4, ![nB, 51, 56, 56]⟩ : Shape).Idx → α)
    (hs : (⟨4, ![nB, 51, 56, 56]⟩ : Shape).Slices ![0, 0, 0, 0] ⟨4, ![nB, 51, 55, 56]⟩)
    (hc : Shape.Concatenates [(⟨4, ![nB, 51, 1, 56]⟩ : Shape), ⟨4, ![nB, 51, 55, 56]⟩] ⟨4, ![nB, 51, 56, 56]⟩ 2)
    (b : Fin nB) (c : Fin 51) (h w : Fin 56) (hh : h.val ≠ 0) :
    concatenate ⟨4, ![nB, 51, 56, 56]⟩ 2 [⟨⟨4, ![nB, 51, 1, 56]⟩, y⟩, ⟨⟨4, ![nB, 51, 55, 56]⟩, extractStridedSlice ⟨4, ![nB, 51, 55, 56]⟩ ![0, 0, 0, 0] v hs⟩] hc (ix4 b c h w)
      = v (ix4 b c ⟨h.val - 1, by have := h.isLt; omega⟩ w) := by
  have hlt := h.isLt
  refine (concatenate_pair_apply_right (t := ⟨4, ![nB, 51, 56, 56]⟩) (s₁ := ⟨4, ![nB, 51, 1, 56]⟩) (s₂ := ⟨4, ![nB, 51, 55, 56]⟩) (2 : Fin 4) _ _ hc (ix4 b c h w)
    (by rfl) (by rfl) (ix4 b c ⟨h.val - 1, by omega⟩ w)
    (fun a => match a with
      | ⟨0, _⟩ => fun _ => rfl
      | ⟨1, _⟩ => fun _ => rfl
      | ⟨2, _⟩ => fun hne => absurd rfl hne
      | ⟨3, _⟩ => fun _ => rfl)
    (by show (h.val - 1) + 1 = h.val; omega)).trans ?_
  exact extractStridedSlice_apply _ v hs _ (ix4 b c ⟨h.val - 1, by omega⟩ w)
    (fun a => match a with
        | ⟨0, _⟩ => by show b.val = 0 + b.val; omega
        | ⟨1, _⟩ => by show c.val = 0 + c.val; omega
        | ⟨2, _⟩ => by show h.val - 1 = 0 + (h.val - 1); omega
        | ⟨3, _⟩ => by show w.val = 0 + w.val; omega)

/-- Strip last along the columns: column w < 55 is `v`'s column w + 1. -/
theorem beforeStripCols_apply (y : (⟨4, ![nB, 51, 56, 1]⟩ : Shape).Idx → α) (v : (⟨4, ![nB, 51, 56, 56]⟩ : Shape).Idx → α)
    (hs : (⟨4, ![nB, 51, 56, 56]⟩ : Shape).Slices ![0, 0, 0, 1] ⟨4, ![nB, 51, 56, 55]⟩)
    (hc : Shape.Concatenates [(⟨4, ![nB, 51, 56, 55]⟩ : Shape), ⟨4, ![nB, 51, 56, 1]⟩] ⟨4, ![nB, 51, 56, 56]⟩ 3)
    (b : Fin nB) (c : Fin 51) (h w : Fin 56) (hw : w.val ≠ 55) :
    concatenate ⟨4, ![nB, 51, 56, 56]⟩ 3 [⟨⟨4, ![nB, 51, 56, 55]⟩, extractStridedSlice ⟨4, ![nB, 51, 56, 55]⟩ ![0, 0, 0, 1] v hs⟩, ⟨⟨4, ![nB, 51, 56, 1]⟩, y⟩] hc (ix4 b c h w)
      = v (ix4 b c h ⟨w.val + 1, by have := w.isLt; omega⟩) := by
  have hlt := w.isLt
  refine (concatenate_pair_apply_left (t := ⟨4, ![nB, 51, 56, 56]⟩) (s₁ := ⟨4, ![nB, 51, 56, 55]⟩) (s₂ := ⟨4, ![nB, 51, 56, 1]⟩) (3 : Fin 4) _ _ hc (ix4 b c h w)
    (by rfl) (ix4 b c h ⟨w.val, by omega⟩)
    (fun a => match a with
      | ⟨0, _⟩ => rfl
      | ⟨1, _⟩ => rfl
      | ⟨2, _⟩ => rfl
      | ⟨3, _⟩ => rfl)).trans ?_
  exact extractStridedSlice_apply _ v hs _ (ix4 b c h ⟨w.val + 1, by omega⟩)
    (fun a => match a with
        | ⟨0, _⟩ => by show b.val = 0 + b.val; omega
        | ⟨1, _⟩ => by show c.val = 0 + c.val; omega
        | ⟨2, _⟩ => by show h.val = 0 + h.val; omega
        | ⟨3, _⟩ => by show w.val + 1 = 1 + w.val; omega)

/-- Strip last along the rows: row h < 55 is `v`'s row h + 1. -/
theorem beforeStripRows_apply (y : (⟨4, ![nB, 51, 1, 56]⟩ : Shape).Idx → α) (v : (⟨4, ![nB, 51, 56, 56]⟩ : Shape).Idx → α)
    (hs : (⟨4, ![nB, 51, 56, 56]⟩ : Shape).Slices ![0, 0, 1, 0] ⟨4, ![nB, 51, 55, 56]⟩)
    (hc : Shape.Concatenates [(⟨4, ![nB, 51, 55, 56]⟩ : Shape), ⟨4, ![nB, 51, 1, 56]⟩] ⟨4, ![nB, 51, 56, 56]⟩ 2)
    (b : Fin nB) (c : Fin 51) (h w : Fin 56) (hh : h.val ≠ 55) :
    concatenate ⟨4, ![nB, 51, 56, 56]⟩ 2 [⟨⟨4, ![nB, 51, 55, 56]⟩, extractStridedSlice ⟨4, ![nB, 51, 55, 56]⟩ ![0, 0, 1, 0] v hs⟩, ⟨⟨4, ![nB, 51, 1, 56]⟩, y⟩] hc (ix4 b c h w)
      = v (ix4 b c ⟨h.val + 1, by have := h.isLt; omega⟩ w) := by
  have hlt := h.isLt
  refine (concatenate_pair_apply_left (t := ⟨4, ![nB, 51, 56, 56]⟩) (s₁ := ⟨4, ![nB, 51, 55, 56]⟩) (s₂ := ⟨4, ![nB, 51, 1, 56]⟩) (2 : Fin 4) _ _ hc (ix4 b c h w)
    (by rfl) (ix4 b c ⟨h.val, by omega⟩ w)
    (fun a => match a with
      | ⟨0, _⟩ => rfl
      | ⟨1, _⟩ => rfl
      | ⟨2, _⟩ => rfl
      | ⟨3, _⟩ => rfl)).trans ?_
  exact extractStridedSlice_apply _ v hs _ (ix4 b c ⟨h.val + 1, by omega⟩ w)
    (fun a => match a with
        | ⟨0, _⟩ => by show b.val = 0 + b.val; omega
        | ⟨1, _⟩ => by show c.val = 0 + c.val; omega
        | ⟨2, _⟩ => by show h.val + 1 = 1 + h.val; omega
        | ⟨3, _⟩ => by show w.val = 0 + w.val; omega)

/-- Strip first along the columns: column w > 0 is `v`'s column w - 1. -/
theorem afterStripCols_apply (y : (⟨4, ![nB, 51, 56, 1]⟩ : Shape).Idx → α) (v : (⟨4, ![nB, 51, 56, 56]⟩ : Shape).Idx → α)
    (hs : (⟨4, ![nB, 51, 56, 56]⟩ : Shape).Slices ![0, 0, 0, 0] ⟨4, ![nB, 51, 56, 55]⟩)
    (hc : Shape.Concatenates [(⟨4, ![nB, 51, 56, 1]⟩ : Shape), ⟨4, ![nB, 51, 56, 55]⟩] ⟨4, ![nB, 51, 56, 56]⟩ 3)
    (b : Fin nB) (c : Fin 51) (h w : Fin 56) (hw : w.val ≠ 0) :
    concatenate ⟨4, ![nB, 51, 56, 56]⟩ 3 [⟨⟨4, ![nB, 51, 56, 1]⟩, y⟩, ⟨⟨4, ![nB, 51, 56, 55]⟩, extractStridedSlice ⟨4, ![nB, 51, 56, 55]⟩ ![0, 0, 0, 0] v hs⟩] hc (ix4 b c h w)
      = v (ix4 b c h ⟨w.val - 1, by have := w.isLt; omega⟩) := by
  have hlt := w.isLt
  refine (concatenate_pair_apply_right (t := ⟨4, ![nB, 51, 56, 56]⟩) (s₁ := ⟨4, ![nB, 51, 56, 1]⟩) (s₂ := ⟨4, ![nB, 51, 56, 55]⟩) (3 : Fin 4) _ _ hc (ix4 b c h w)
    (by rfl) (by rfl) (ix4 b c h ⟨w.val - 1, by omega⟩)
    (fun a => match a with
      | ⟨0, _⟩ => fun _ => rfl
      | ⟨1, _⟩ => fun _ => rfl
      | ⟨2, _⟩ => fun _ => rfl
      | ⟨3, _⟩ => fun hne => absurd rfl hne)
    (by show (w.val - 1) + 1 = w.val; omega)).trans ?_
  exact extractStridedSlice_apply _ v hs _ (ix4 b c h ⟨w.val - 1, by omega⟩)
    (fun a => match a with
        | ⟨0, _⟩ => by show b.val = 0 + b.val; omega
        | ⟨1, _⟩ => by show c.val = 0 + c.val; omega
        | ⟨2, _⟩ => by show h.val = 0 + h.val; omega
        | ⟨3, _⟩ => by show w.val - 1 = 0 + (w.val - 1); omega)

/-! ## On the strip -/

/-- Strip first along the rows: row 0 is the strip. -/
theorem stripFirstRows_apply (y : (⟨4, ![nB, 51, 1, 56]⟩ : Shape).Idx → α) (x₂ : (⟨4, ![nB, 51, 55, 56]⟩ : Shape).Idx → α)
    (hc : Shape.Concatenates [(⟨4, ![nB, 51, 1, 56]⟩ : Shape), ⟨4, ![nB, 51, 55, 56]⟩] ⟨4, ![nB, 51, 56, 56]⟩ 2)
    (b : Fin nB) (c : Fin 51) (h w : Fin 56) (hh : h.val = 0) :
    concatenate ⟨4, ![nB, 51, 56, 56]⟩ 2 [⟨⟨4, ![nB, 51, 1, 56]⟩, y⟩, ⟨⟨4, ![nB, 51, 55, 56]⟩, x₂⟩] hc (ix4 b c h w) = y (ix4 b c ⟨0, by omega⟩ w) :=
  concatenate_pair_apply_left (t := ⟨4, ![nB, 51, 56, 56]⟩) (s₁ := ⟨4, ![nB, 51, 1, 56]⟩) (s₂ := ⟨4, ![nB, 51, 55, 56]⟩) (2 : Fin 4) _ _ hc (ix4 b c h w)
    (by rfl) (ix4 b c ⟨0, by omega⟩ w)
    (fun a => match a with
      | ⟨0, _⟩ => rfl
      | ⟨1, _⟩ => rfl
      | ⟨2, _⟩ => by show (0 : Nat) = h.val; omega
      | ⟨3, _⟩ => rfl)

/-- Strip last along the columns: column 55 is the strip. -/
theorem stripLastCols_apply (x₁ : (⟨4, ![nB, 51, 56, 55]⟩ : Shape).Idx → α) (y : (⟨4, ![nB, 51, 56, 1]⟩ : Shape).Idx → α)
    (hc : Shape.Concatenates [(⟨4, ![nB, 51, 56, 55]⟩ : Shape), ⟨4, ![nB, 51, 56, 1]⟩] ⟨4, ![nB, 51, 56, 56]⟩ 3)
    (b : Fin nB) (c : Fin 51) (h w : Fin 56) (hw : w.val = 55) :
    concatenate ⟨4, ![nB, 51, 56, 56]⟩ 3 [⟨⟨4, ![nB, 51, 56, 55]⟩, x₁⟩, ⟨⟨4, ![nB, 51, 56, 1]⟩, y⟩] hc (ix4 b c h w) = y (ix4 b c h ⟨0, by omega⟩) :=
  concatenate_pair_apply_right (t := ⟨4, ![nB, 51, 56, 56]⟩) (s₁ := ⟨4, ![nB, 51, 56, 55]⟩) (s₂ := ⟨4, ![nB, 51, 56, 1]⟩) (3 : Fin 4) _ _ hc (ix4 b c h w)
    (by rfl) (by rfl) (ix4 b c h ⟨0, by omega⟩)
    (fun a => match a with
      | ⟨0, _⟩ => fun _ => rfl
      | ⟨1, _⟩ => fun _ => rfl
      | ⟨2, _⟩ => fun _ => rfl
      | ⟨3, _⟩ => fun hne => absurd rfl hne)
    (by show 0 + 55 = w.val; omega)

/-- Strip last along the rows: row 55 is the strip. -/
theorem stripLastRows_apply (x₁ : (⟨4, ![nB, 51, 55, 56]⟩ : Shape).Idx → α) (y : (⟨4, ![nB, 51, 1, 56]⟩ : Shape).Idx → α)
    (hc : Shape.Concatenates [(⟨4, ![nB, 51, 55, 56]⟩ : Shape), ⟨4, ![nB, 51, 1, 56]⟩] ⟨4, ![nB, 51, 56, 56]⟩ 2)
    (b : Fin nB) (c : Fin 51) (h w : Fin 56) (hh : h.val = 55) :
    concatenate ⟨4, ![nB, 51, 56, 56]⟩ 2 [⟨⟨4, ![nB, 51, 55, 56]⟩, x₁⟩, ⟨⟨4, ![nB, 51, 1, 56]⟩, y⟩] hc (ix4 b c h w) = y (ix4 b c ⟨0, by omega⟩ w) :=
  concatenate_pair_apply_right (t := ⟨4, ![nB, 51, 56, 56]⟩) (s₁ := ⟨4, ![nB, 51, 55, 56]⟩) (s₂ := ⟨4, ![nB, 51, 1, 56]⟩) (2 : Fin 4) _ _ hc (ix4 b c h w)
    (by rfl) (by rfl) (ix4 b c ⟨0, by omega⟩ w)
    (fun a => match a with
      | ⟨0, _⟩ => fun _ => rfl
      | ⟨1, _⟩ => fun _ => rfl
      | ⟨2, _⟩ => fun hne => absurd rfl hne
      | ⟨3, _⟩ => fun _ => rfl)
    (by show 0 + 55 = h.val; omega)

/-- Strip first along the columns: column 0 is the strip. -/
theorem stripFirstCols_apply (y : (⟨4, ![nB, 51, 56, 1]⟩ : Shape).Idx → α) (x₂ : (⟨4, ![nB, 51, 56, 55]⟩ : Shape).Idx → α)
    (hc : Shape.Concatenates [(⟨4, ![nB, 51, 56, 1]⟩ : Shape), ⟨4, ![nB, 51, 56, 55]⟩] ⟨4, ![nB, 51, 56, 56]⟩ 3)
    (b : Fin nB) (c : Fin 51) (h w : Fin 56) (hw : w.val = 0) :
    concatenate ⟨4, ![nB, 51, 56, 56]⟩ 3 [⟨⟨4, ![nB, 51, 56, 1]⟩, y⟩, ⟨⟨4, ![nB, 51, 56, 55]⟩, x₂⟩] hc (ix4 b c h w) = y (ix4 b c h ⟨0, by omega⟩) :=
  concatenate_pair_apply_left (t := ⟨4, ![nB, 51, 56, 56]⟩) (s₁ := ⟨4, ![nB, 51, 56, 1]⟩) (s₂ := ⟨4, ![nB, 51, 56, 55]⟩) (3 : Fin 4) _ _ hc (ix4 b c h w)
    (by rfl) (ix4 b c h ⟨0, by omega⟩)
    (fun a => match a with
      | ⟨0, _⟩ => rfl
      | ⟨1, _⟩ => rfl
      | ⟨2, _⟩ => rfl
      | ⟨3, _⟩ => by show (0 : Nat) = w.val; omega)

/-! ## A constant strip: the zero-padded shifts -/

/-- Constant strip on top: `z` on row 0, `v`'s row h - 1 below it. -/
theorem padTop_apply (z : α) (v : (⟨4, ![nB, 51, 56, 56]⟩ : Shape).Idx → α)
    (hs : (⟨4, ![nB, 51, 56, 56]⟩ : Shape).Slices ![0, 0, 0, 0] ⟨4, ![nB, 51, 55, 56]⟩)
    (hc : Shape.Concatenates [(⟨4, ![nB, 51, 1, 56]⟩ : Shape), ⟨4, ![nB, 51, 55, 56]⟩] ⟨4, ![nB, 51, 56, 56]⟩ 2)
    (b : Fin nB) (c : Fin 51) (h w : Fin 56) :
    concatenate ⟨4, ![nB, 51, 56, 56]⟩ 2 [⟨⟨4, ![nB, 51, 1, 56]⟩, broadcast ⟨4, ![nB, 51, 1, 56]⟩ z⟩, ⟨⟨4, ![nB, 51, 55, 56]⟩, extractStridedSlice ⟨4, ![nB, 51, 55, 56]⟩ ![0, 0, 0, 0] v hs⟩] hc (ix4 b c h w)
      = if hh : h.val = 0 then z else v (ix4 b c ⟨h.val - 1, by have := h.isLt; omega⟩ w) := by
  by_cases hh : h.val = 0
  · rw [dif_pos hh]; exact stripFirstRows_apply _ _ hc b c h w hh
  · rw [dif_neg hh]; exact afterStripRows_apply _ v hs hc b c h w hh

/-- Constant strip on the right: `z` on column 55, `v`'s column w + 1 left of it. -/
theorem padRight_apply (z : α) (v : (⟨4, ![nB, 51, 56, 56]⟩ : Shape).Idx → α)
    (hs : (⟨4, ![nB, 51, 56, 56]⟩ : Shape).Slices ![0, 0, 0, 1] ⟨4, ![nB, 51, 56, 55]⟩)
    (hc : Shape.Concatenates [(⟨4, ![nB, 51, 56, 55]⟩ : Shape), ⟨4, ![nB, 51, 56, 1]⟩] ⟨4, ![nB, 51, 56, 56]⟩ 3)
    (b : Fin nB) (c : Fin 51) (h w : Fin 56) :
    concatenate ⟨4, ![nB, 51, 56, 56]⟩ 3 [⟨⟨4, ![nB, 51, 56, 55]⟩, extractStridedSlice ⟨4, ![nB, 51, 56, 55]⟩ ![0, 0, 0, 1] v hs⟩, ⟨⟨4, ![nB, 51, 56, 1]⟩, broadcast ⟨4, ![nB, 51, 56, 1]⟩ z⟩] hc (ix4 b c h w)
      = if hw : w.val = 55 then z else v (ix4 b c h ⟨w.val + 1, by have := w.isLt; omega⟩) := by
  by_cases hw : w.val = 55
  · rw [dif_pos hw]; exact stripLastCols_apply _ _ hc b c h w hw
  · rw [dif_neg hw]; exact beforeStripCols_apply _ v hs hc b c h w hw

/-- Constant strip at the bottom: `z` on row 55, `v`'s row h + 1 above it. -/
theorem padBottom_apply (z : α) (v : (⟨4, ![nB, 51, 56, 56]⟩ : Shape).Idx → α)
    (hs : (⟨4, ![nB, 51, 56, 56]⟩ : Shape).Slices ![0, 0, 1, 0] ⟨4, ![nB, 51, 55, 56]⟩)
    (hc : Shape.Concatenates [(⟨4, ![nB, 51, 55, 56]⟩ : Shape), ⟨4, ![nB, 51, 1, 56]⟩] ⟨4, ![nB, 51, 56, 56]⟩ 2)
    (b : Fin nB) (c : Fin 51) (h w : Fin 56) :
    concatenate ⟨4, ![nB, 51, 56, 56]⟩ 2 [⟨⟨4, ![nB, 51, 55, 56]⟩, extractStridedSlice ⟨4, ![nB, 51, 55, 56]⟩ ![0, 0, 1, 0] v hs⟩, ⟨⟨4, ![nB, 51, 1, 56]⟩, broadcast ⟨4, ![nB, 51, 1, 56]⟩ z⟩] hc (ix4 b c h w)
      = if hh : h.val = 55 then z else v (ix4 b c ⟨h.val + 1, by have := h.isLt; omega⟩ w) := by
  by_cases hh : h.val = 55
  · rw [dif_pos hh]; exact stripLastRows_apply _ _ hc b c h w hh
  · rw [dif_neg hh]; exact beforeStripRows_apply _ v hs hc b c h w hh

/-- Constant strip on the left: `z` on column 0, `v`'s column w - 1 right of it. -/
theorem padLeft_apply (z : α) (v : (⟨4, ![nB, 51, 56, 56]⟩ : Shape).Idx → α)
    (hs : (⟨4, ![nB, 51, 56, 56]⟩ : Shape).Slices ![0, 0, 0, 0] ⟨4, ![nB, 51, 56, 55]⟩)
    (hc : Shape.Concatenates [(⟨4, ![nB, 51, 56, 1]⟩ : Shape), ⟨4, ![nB, 51, 56, 55]⟩] ⟨4, ![nB, 51, 56, 56]⟩ 3)
    (b : Fin nB) (c : Fin 51) (h w : Fin 56) :
    concatenate ⟨4, ![nB, 51, 56, 56]⟩ 3 [⟨⟨4, ![nB, 51, 56, 1]⟩, broadcast ⟨4, ![nB, 51, 56, 1]⟩ z⟩, ⟨⟨4, ![nB, 51, 56, 55]⟩, extractStridedSlice ⟨4, ![nB, 51, 56, 55]⟩ ![0, 0, 0, 0] v hs⟩] hc (ix4 b c h w)
      = if hw : w.val = 0 then z else v (ix4 b c h ⟨w.val - 1, by have := w.isLt; omega⟩) := by
  by_cases hw : w.val = 0
  · rw [dif_pos hw]; exact stripFirstCols_apply _ _ hc b c h w hw
  · rw [dif_neg hw]; exact afterStripCols_apply _ v hs hc b c h w hw

end Cert.Shift
-- ==== Proof.SlabCut.lean ====
/-
  Cutting a channel group out of a batch, as each program does it.

  The slab of channels `o` to `o + n - 1` of a batch [nB, 256, 56, 56] (`slab`, the specification's) is what the
  host's slice at offsets (0, o, 0, 0) of sizes [nB, n, 56, 56] computes (`slice_eq_slab`), what a kernel's load
  of its block through the rectangle at those offsets reads (`ld_eq_slab`), and the place of the slab's element
  (b, c, h, w) in the batch is (b, o + c, h, w) (`emb_eq`: where a store through that rectangle puts it).
-/
import Idealize.ShloMosaic.Lib.ValueIdx
import Idealize.ShloMosaic.Lib.Pipeline.Value
import proofs.«112341_j38104949850162_1_alg».proof.Proof.ShiftSpec

namespace Cert.Shift

open Idealize.ShloMosaic Idealize.ShloMosaic.ValueIdx

variable {α : Type} {nB : Nat}

/-- The host's slice of the channels from `o` on is the slab. -/
theorem slice_eq_slab (o n : Nat) (ho : o + n ≤ 256) (X : (⟨4, ![nB, 256, 56, 56]⟩ : Shape).Idx → α)
    (hs : (⟨4, ![nB, 256, 56, 56]⟩ : Shape).Slices ![0, o, 0, 0] ⟨4, ![nB, n, 56, 56]⟩) :
    extractStridedSlice ⟨4, ![nB, n, 56, 56]⟩ ![0, o, 0, 0] X hs = slab o n ho X := by
  funext y
  exact extractStridedSlice_apply _ X hs y _
    (fun a => match a with
      | ⟨0, _⟩ => by show (y 0).val = 0 + (y 0).val; omega
      | ⟨1, _⟩ => by show o + (y 1).val = o + (y 1).val; rfl
      | ⟨2, _⟩ => by show (y 2).val = 0 + (y 2).val; omega
      | ⟨3, _⟩ => by show (y 3).val = 0 + (y 3).val; omega)

/-- A load through the rectangle at (0, o, 0, 0) of sizes [nB, n, 56, 56] reads the slab. -/
theorem ld_eq_slab (o n : Nat) (ho : o + n ≤ 256) (X : (⟨4, ![nB, 256, 56, 56]⟩ : Shape).Idx → α)
    (inb : ∀ a, (![0, o, 0, 0] : Fin 4 → Nat) a + (![nB, n, 56, 56] : Fin 4 → Nat) a ≤ (⟨4, ![nB, 256, 56, 56]⟩ : Shape).size a) :
    (fun y => X ((Rect.unit (s := ⟨4, ![nB, 256, 56, 56]⟩) ![0, o, 0, 0] ![nB, n, 56, 56] inb).idx y)) = slab o n ho X := by
  funext y
  refine congrArg X (funext fun a => Fin.ext ?_)
  match a with
  | ⟨0, _⟩ => show 0 + 1 * (y 0).val = (y 0).val; omega
  | ⟨1, _⟩ => show o + 1 * (y 1).val = o + (y 1).val; omega
  | ⟨2, _⟩ => show 0 + 1 * (y 2).val = (y 2).val; omega
  | ⟨3, _⟩ => show 0 + 1 * (y 3).val = (y 3).val; omega

/-- The slab's element (b, c, h, w) sits at (b, o + c, h, w) of the batch. -/
theorem emb_eq (o n : Nat) (ho : o + n ≤ 256)
    (inb : ∀ a, (![0, o, 0, 0] : Fin 4 → Nat) a + (![nB, n, 56, 56] : Fin 4 → Nat) a ≤ (⟨4, ![nB, 256, 56, 56]⟩ : Shape).size a)
    (b : Fin nB) (c : Fin n) (h w : Fin 56) :
    (Rect.unit (s := ⟨4, ![nB, 256, 56, 56]⟩) ![0, o, 0, 0] ![nB, n, 56, 56] inb).emb (ix4 b c h w)
      = ix4 b ⟨o + c.val, by have := c.isLt; omega⟩ h w := by
  funext a
  apply Fin.ext
  match a with
  | ⟨0, _⟩ => show 0 + 1 * b.val = b.val; omega
  | ⟨1, _⟩ => show o + 1 * c.val = o + c.val; omega
  | ⟨2, _⟩ => show 0 + 1 * h.val = h.val; omega
  | ⟨3, _⟩ => show 0 + 1 * w.val = w.val; omega

end Cert.Shift
-- ==== Proof.KernelBlock.lean ====
/-
  What one grid point of the kernel leaves in its output block, as one function of its input block.

  The body loads the five channel groups of its block [2, 256, 56, 56] — four slabs of 51 channels and one of 52 —
  and stores five pieces into the output block at the same channel offsets: each of the first four slabs joined,
  along a spatial axis, with a strip of zeros (the zero-padded shift of that group), the fifth as loaded. Each piece
  is the block's shifted image restricted to the piece's rectangle (`pay1_eq` … `pay4_eq`, `copy_eq`), and the five
  rectangles cover the block, so the block the body leaves is `shifted 2 0 x0` (`out_eq`).
-/
import proofs.«112341_j38104949850162_1_alg».proof.Proof.Gen.KernelIdeal.Frame
import Idealize.ShloMosaic.Lib.Pipeline.Value
import proofs.«112341_j38104949850162_1_alg».proof.Proof.ShiftSpec
import proofs.«112341_j38104949850162_1_alg».proof.Proof.SlabShift
import proofs.«112341_j38104949850162_1_alg».proof.Proof.SlabCut

noncomputable section

namespace Cert.KernelIdeal.Block

open Cert.KernelIdeal Cert.KernelIdeal.Gen Idealize.ShloMosaic Idealize.ShloMosaic.TcCoe Idealize.ShloMosaic.Tactic Idealize.SL.Sem
open Idealize.ShloMosaic.ValueIdx Cert.Shift

variable {F : FTy → Type} [FloatOps F]

/-- The padding value: the all-zero word read as a float. -/
abbrev zeroF : F .f32 := Scalar.ofBits .f32 0x00000000#32

/-- Group 0's piece: zeros on row 0, the slab one row up below it. -/
theorem pay1_eq (x0 : Vec F S2x256x56x56 .f32)
    (inb : ∀ a, (![0, 0, 0, 0] : Fin 4 → Nat) a + (![2, 51, 56, 56] : Fin 4 → Nat) a ≤ S2x256x56x56.size a)
    (b : Fin 2) (c : Fin 51) (h w : Fin 56) :
    k0_pay1 (View.ld x0 (Rect.unit (s := S2x256x56x56) ![0, 0, 0, 0] ![2, 51, 56, 56] inb)) (ix4 b c h w)
      = shifted 2 (zeroF (F := F)) x0 ((Rect.unit (s := S2x256x56x56) ![0, 0, 0, 0] ![2, 51, 56, 56] inb).emb (ix4 b c h w)) := by
  rw [emb_eq 0 51 (by omega) inb, shifted_group0]
  have e : View.ld x0 (Rect.unit (s := S2x256x56x56) ![0, 0, 0, 0] ![2, 51, 56, 56] inb) = slab 0 51 (by omega) x0 :=
    ld_eq_slab 0 51 (by omega) x0 inb
  rw [e]
  unfold k0_pay1
  exact padTop_apply _ _ _ _ b c h w

/-- Group 1's piece: zeros on column 55, the slab one column to the right elsewhere. -/
theorem pay2_eq (x0 : Vec F S2x256x56x56 .f32)
    (inb : ∀ a, (![0, 51, 0, 0] : Fin 4 → Nat) a + (![2, 51, 56, 56] : Fin 4 → Nat) a ≤ S2x256x56x56.size a)
    (b : Fin 2) (c : Fin 51) (h w : Fin 56) :
    k0_pay2 (View.ld x0 (Rect.unit (s := S2x256x56x56) ![0, 51, 0, 0] ![2, 51, 56, 56] inb)) (ix4 b c h w)
      = shifted 2 (zeroF (F := F)) x0 ((Rect.unit (s := S2x256x56x56) ![0, 51, 0, 0] ![2, 51, 56, 56] inb).emb (ix4 b c h w)) := by
  rw [emb_eq 51 51 (by omega) inb, shifted_group1]
  have e : View.ld x0 (Rect.unit (s := S2x256x56x56) ![0, 51, 0, 0] ![2, 51, 56, 56] inb) = slab 51 51 (by omega) x0 :=
    ld_eq_slab 51 51 (by omega) x0 inb
  rw [e]
  unfold k0_pay2
  exact padRight_apply _ _ _ _ b c h w

/-- Group 2's piece: zeros on row 55, the slab one row down above it. -/
theorem pay3_eq (x0 : Vec F S2x256x56x56 .f32)
    (inb : ∀ a, (![0, 102, 0, 0] : Fin 4 → Nat) a + (![2, 51, 56, 56] : Fin 4 → Nat) a ≤ S2x256x56x56.size a)
    (b : Fin 2) (c : Fin 51) (h w : Fin 56) :
    k0_pay3 (View.ld x0 (Rect.unit (s := S2x256x56x56) ![0, 102, 0, 0] ![2, 51, 56, 56] inb)) (ix4 b c h w)
      = shifted 2 (zeroF (F := F)) x0 ((Rect.unit (s := S2x256x56x56) ![0, 102, 0, 0] ![2, 51, 56, 56] inb).emb (ix4 b c h w)) := by
  rw [emb_eq 102 51 (by omega) inb, shifted_group2]
  have e : View.ld x0 (Rect.unit (s := S2x256x56x56) ![0, 102, 0, 0] ![2, 51, 56, 56] inb) = slab 102 51 (by omega) x0 :=
    ld_eq_slab 102 51 (by omega) x0 inb
  rw [e]
  unfold k0_pay3
  exact padBottom_apply _ _ _ _ b c h w

/-- Group 3's piece: zeros on column 0, the slab one column to the left elsewhere. -/
theorem pay4_eq (x0 : Vec F S2x256x56x56 .f32)
    (inb : ∀ a, (![0, 153, 0, 0] : Fin 4 → Nat) a + (![2, 51, 56, 56] : Fin 4 → Nat) a ≤ S2x256x56x56.size a)
    (b : Fin 2) (c : Fin 51) (h w : Fin 56) :
    k0_pay4 (View.ld x0 (Rect.unit (s := S2x256x56x56) ![0, 153, 0, 0] ![2, 51, 56, 56] inb)) (ix4 b c h w)
      = shifted 2 (zeroF (F := F)) x0 ((Rect.unit (s := S2x256x56x56) ![0, 153, 0, 0] ![2, 51, 56, 56] inb).emb (ix4 b c h w)) := by
  rw [emb_eq 153 51 (by omega) inb, shifted_group3]
  have e : View.ld x0 (Rect.unit (s := S2x256x56x56) ![0, 153, 0, 0] ![2, 51, 56, 56] inb) = slab 153 51 (by omega) x0 :=
    ld_eq_slab 153 51 (by omega) x0 inb
  rw [e]
  unfold k0_pay4
  exact padLeft_apply _ _ _ _ b c h w

/-- Group 4's piece: the slab as loaded. -/
theorem copy_eq (x0 : Vec F S2x256x56x56 .f32)
    (inb : ∀ a, (![0, 204, 0, 0] : Fin 4 → Nat) a + (![2, 52, 56, 56] : Fin 4 → Nat) a ≤ S2x256x56x56.size a)
    (b : Fin 2) (c : Fin 52) (h w : Fin 56) :
    View.ld x0 (Rect.unit (s := S2x256x56x56) ![0, 204, 0, 0] ![2, 52, 56, 56] inb) (ix4 b c h w)
      = shifted 2 (zeroF (F := F)) x0 ((Rect.unit (s := S2x256x56x56) ![0, 204, 0, 0] ![2, 52, 56, 56] inb).emb (ix4 b c h w)) := by
  rw [emb_eq 204 52 (by omega) inb, shifted_group4]
  exact congrFun (ld_eq_slab 204 52 (by omega) x0 inb) (ix4 b c h w)

/-- The block the body leaves is the shifted image of the block it was given. -/
theorem out_eq (c : Dev nD) (i : grid0.Coords) (arg1 : Memref sig .tc .vmem S2x256x56x56 .f32) (harg1 : arg1.IsWhole)
    (arg2 : Memref sig .tc .vmem S2x256x56x56 .f32) (harg2 : arg2.IsWhole) (x0 : Vec F S2x256x56x56 .f32) :
    out0_A_1 c i arg1 harg1 arg2 harg2 x0 = shifted 2 (zeroF (F := F)) x0 := by
  unfold out0_A_1
  rw [View.read_writes_eq_canon _ _ _ (cover0_A_1 c i arg1 harg1 arg2 harg2 x0)]
  funext y
  refine View.canon_apply_of_pieces (shifted 2 (zeroF (F := F)) x0) _ ?_ y (cover0_A_1 c i arg1 harg1 arg2 harg2 x0 y)
  unfold kernelRun0_A
  dsimp only
  sl_unfold_words
  simp only [View.readAt_eq_ld, harg1.read_unread]
  intro p hp
  simp only [List.mem_cons, List.mem_nil_iff, or_false] at hp
  rcases hp with rfl | rfl | rfl | rfl | rfl
  · intro x
    obtain ⟨b, c', h, w, rfl⟩ : ∃ (b : Fin 2) (c' : Fin 52) (h w : Fin 56), x = ix4 b c' h w :=
      ⟨x 0, x 1, x 2, x 3, eq_ix4 x⟩
    exact copy_eq x0 _ b c' h w
  · intro x
    obtain ⟨b, c', h, w, rfl⟩ : ∃ (b : Fin 2) (c' : Fin 51) (h w : Fin 56), x = ix4 b c' h w :=
      ⟨x 0, x 1, x 2, x 3, eq_ix4 x⟩
    exact pay4_eq x0 _ b c' h w
  · intro x
    obtain ⟨b, c', h, w, rfl⟩ : ∃ (b : Fin 2) (c' : Fin 51) (h w : Fin 56), x = ix4 b c' h w :=
      ⟨x 0, x 1, x 2, x 3, eq_ix4 x⟩
    exact pay3_eq x0 _ b c' h w
  · intro x
    obtain ⟨b, c', h, w, rfl⟩ : ∃ (b : Fin 2) (c' : Fin 51) (h w : Fin 56), x = ix4 b c' h w :=
      ⟨x 0, x 1, x 2, x 3, eq_ix4 x⟩
    exact pay2_eq x0 _ b c' h w
  · intro x
    obtain ⟨b, c', h, w, rfl⟩ : ∃ (b : Fin 2) (c' : Fin 51) (h w : Fin 56), x = ix4 b c' h w :=
      ⟨x 0, x 1, x 2, x 3, eq_ix4 x⟩
    exact pay1_eq x0 _ b c' h w

end Cert.KernelIdeal.Block

end
-- ==== Proof.KernelArray.lean ====
/-
  From the blocks to the whole array: after the kernel has run, its output array is the shifted input array.

  The grid has 32 points; point `t` works on images 2t and 2t + 1: its input block is those two images of the
  input array, and what it writes back is its output block to the same two images of the output array (both
  index maps send `t` to block (t, 0, 0, 0) of blocks [2, 256, 56, 56]). The shift works image by image, so the
  shifted block IS the block of the shifted array (`flushed_eq`); the 32 blocks cover the 64 images (`cover`), so
  the output array ends as `shifted 64 0` of the input array (`final`), and that is the kernel's run (`run`).
-/
import proofs.«112341_j38104949850162_1_alg».proof.Proof.Gen.KernelIdeal.Value
import Idealize.ShloMosaic.Lib.Pipeline.Value
import proofs.«112341_j38104949850162_1_alg».proof.Proof.ShiftSpec
import proofs.«112341_j38104949850162_1_alg».proof.Proof.KernelBlock

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem
open Idealize.ShloMosaic.Pipeline (Dat)
open Idealize.ShloMosaic.ValueIdx Cert.Shift

variable {F : FTy → Type} [FloatOps F]
variable (m : (ℓ : Loc nD τ sig) → Buf (Elt F) ℓ) (ρ : Dev nD → PrngReg)

/-- The two index maps, over the 32 grid points: both send `t` to the block whose first coordinate is one number
    below 32 and whose other coordinates are 0. -/
theorem idx_facts : ∀ t : Fin cfg0.N, win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) ≤ 31 :=
  (by decide +kernel : ∀ t : Fin grid0.N, _)

/-- Every pair of images is some point's. -/
theorem idx_onto : ∀ q : Fin 32, ∃ t : Fin cfg0.N, win0_1.index t = ![q.val, 0, 0, 0] :=
  (by decide +kernel : ∀ q : Fin 32, ∃ t : Fin grid0.N, win0_1.index t = ![q.val, 0, 0, 0])

/-- What point `t` writes back is block `t` of the shifted input array. -/
theorem flushed_eq (c : Dev nD) (t : Fin cfg0.N) :
    (dats m 0 c).flushed 1 t
      = ((cfg0.win 1).blk t).view.read (Elt F) (shifted 64 (zeroF (F := F)) (V m c main_arg0)) := by
  rw [flushed1_A, out_eq]
  obtain ⟨e0, e1, e2, e3, f1, f2, f3, f0⟩ := idx_facts t
  funext j
  obtain ⟨b, ch, h, w, rfl⟩ : ∃ (b : Fin 2) (ch : Fin 256) (h w : Fin 56), j = ix4 b ch h w :=
    ⟨j 0, j 1, j 2, j 3, eq_ix4 j⟩
  show shifted 2 (zeroF (F := F)) (iblk m c 0 t) (ix4 b ch h w)
      = shifted 64 (zeroF (F := F)) (V m c main_arg0) (((cfg0.win 1).blk t).view.emb (ix4 b ch h w))
  have hb := b.isLt
  have hemb : ((cfg0.win 1).blk t).view.emb (ix4 b ch h w)
      = ix4 (⟨win0_1.index t (0 : Fin 4) * 2 + b.val, by omega⟩ : Fin 64) ch h w := by
    funext a; apply Fin.ext
    match a with
    | ⟨0, _⟩ => show win0_1.index t (0 : Fin 4) * 2 + 1 * b.val = win0_1.index t (0 : Fin 4) * 2 + b.val; omega
    | ⟨1, _⟩ => show win0_1.index t (1 : Fin 4) * 256 + 1 * ch.val = ch.val; omega
    | ⟨2, _⟩ => show win0_1.index t (2 : Fin 4) * 56 + 1 * h.val = h.val; omega
    | ⟨3, _⟩ => show win0_1.index t (3 : Fin 4) * 56 + 1 * w.val = w.val; omega
  rw [hemb]
  refine shifted_of_image _ _ _ b _ (fun c' h' w' => ?_) ch h w
  show V m c main_arg0 (((cfg0.win 0).blk t).view.emb (ix4 b c' h' w')) = V m c main_arg0 _
  refine congrArg (V m c main_arg0) (funext fun a => Fin.ext ?_)
  match a with
  | ⟨0, _⟩ => show win0_0.index t (0 : Fin 4) * 2 + 1 * b.val = win0_1.index t (0 : Fin 4) * 2 + b.val; omega
  | ⟨1, _⟩ => show win0_0.index t (1 : Fin 4) * 256 + 1 * c'.val = c'.val; omega
  | ⟨2, _⟩ => show win0_0.index t (2 : Fin 4) * 56 + 1 * h'.val = h'.val; omega
  | ⟨3, _⟩ => show win0_0.index t (3 : Fin 4) * 56 + 1 * w'.val = w'.val; omega

/-- An index of the output array is in point `t`'s block iff each coordinate is in the block's range on its axis. -/
theorem mem_blk (t : Fin cfg0.N) (i : S64x256x56x56.Idx) :
    i ∈ ((cfg0.win 1).blk t).view.set ↔ ∀ a : Fin 4, win0_1.index t a * S2x256x56x56.size a ≤ (i a).val
      ∧ (i a).val < win0_1.index t a * S2x256x56x56.size a + S2x256x56x56.size a := by
  show i ∈ ((View.whole main_v0).slice (win0_1.rect t)).set ↔ _
  rw [View.set_slice_whole, Rect.mem_set_unit]
  exact Iff.rfl

/-- Every index of the output array is in the block of the point that holds its image. -/
theorem cover (i : S64x256x56x56.Idx) : ∃ t : Fin cfg0.N, (cfg0.win 1).flush t = true ∧ i ∈ ((cfg0.win 1).blk t).view.set := by
  have h0 : (i 0).val < 64 := (i 0).isLt
  have h1 : (i 1).val < 256 := (i 1).isLt
  have h2 : (i 2).val < 56 := (i 2).isLt
  have h3 : (i 3).val < 56 := (i 3).isLt
  obtain ⟨t, ht⟩ := idx_onto ⟨(i 0).val / 2, by omega⟩
  have q0 : win0_1.index t (0 : Fin 4) = (i 0).val / 2 := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 256 ≤ (i 1).val ∧ (i 1).val < win0_1.index t (1 : Fin 4) * 256 + 256; omega
  | ⟨2, _⟩ => show win0_1.index t (2 : Fin 4) * 56 ≤ (i 2).val ∧ (i 2).val < win0_1.index t (2 : Fin 4) * 56 + 56; omega
  | ⟨3, _⟩ => show win0_1.index t (3 : Fin 4) * 56 ≤ (i 3).val ∧ (i 3).val < win0_1.index t (3 : Fin 4) * 56 + 56; omega

/-- The output array after the run: the shifted input array. -/
theorem final (c : Dev nD) :
    (dats m 0 c).arrAt 1 cfg0.N = shifted 64 (zeroF (F := F)) (m ((c : Thread nD τ).loc main_arg0)) :=
  (dats m 0 c).arrAt_eq_of_cover 1 (shifted 64 (zeroF (F := F)) (V m c main_arg0))
    (fun t _ => flushed_eq m c t) cover

/-- The kernel's run: it terminates with the output array at the shifted input array, the input unchanged. -/
theorem run : θ_run defs (onTc (τ := τ) (main (F := F))) ⟨m, fun _ => 0, ρ⟩ fun r => ∀ c : Dev nD,
      r.2.mem ((c : Thread nD τ).loc main_v0) = shifted 64 (zeroF (F := F)) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.LibNary5.lean ====
/-
  A host operation of FIVE operands (a concatenation of five arrays), its result read operand by operand.

  After an operation `nary ![x, a, b, c, e] y f` the buffer `y` holds `f` of the operands' contents. Stated over the
  family of references (`fun k => F (xs k)`) that is of little use to a proof that goes on to read each operand:
  under the binder the reference `xs k` is not a literal, so nothing more can be said about what it holds. Here the
  same result is stated with each operand's contents at its own reference, `F x`, `F a`, `F b`, `F c`, `F e`, one after
  the other — the five-operand form of the library's four-operand lemma.
-/
import Idealize.ShloMosaic.Lib.StableHlo.Run

noncomputable section

namespace Cert.Lib.Nary5

open Idealize.ShloMosaic Idealize.ShloMosaic.StableHlo

variable {τ : Topo} {sig : RefSig} {Val : EltTy → Type} {x a b c e y : Ref sig .tc}

/-- The result of a five-operand operation, each operand's contents read at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, with the result reference left out of the rewriting index, for use in one `simp` pass over a whole
    line of operations (as the library states its other result lemmas for that use). -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Cert.Lib.Nary5

end
-- ==== Proof.RefRun.lean ====
/-
  The reference program as one straight line of host operations, and its run.

  The reference's @main slices the five channel groups out of its argument, rolls each of the first four by one
  along a spatial axis (a function of three operations: the wrapped-around strip, the 55 rows or columns that
  move, their join), sets the strip the wrap landed on to zero (a scatter whose body returns the update, at one
  literal index, of an array of zeros), and joins the five groups again: 38 operations, each writing one buffer of
  its own. `ops` lists them in order, the rolls' three operations in the place of their calls; `main_eq` says @main
  is that line; `run_line` that every weakly fair execution of it terminates with every buffer at the line's fold
  over the launch contents (`after ops`).

  The last operation joins five buffers; `join_result` reads its result with each operand's contents at its own
  buffer, so that the fold can be read further down, operand by operand.
-/
import proofs.«112341_j38104949850162_1_alg».proof.Proof.Gen.ReferenceIdeal
import Idealize.ShloMosaic.Lib.StableHlo.Run
import proofs.«112341_j38104949850162_1_alg».proof.Proof.LibNary5

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 38 operations, in order. -/
abbrev ops : List (HloOp τ sig (Elt F)) :=
  [ unary main_arg0 main_v0 ((extractStridedSlice S64x51x56x56 ![0, 0, 0, 0] · slices_S64x256x56x56_S64x51x56x56_0_0_0_0) : (⟨S64x256x56x56, .f32⟩ : BufTy).Contents (Elt F) → (⟨S64x51x56x56, .f32⟩ : BufTy).Contents (Elt F)),
    unary main_arg0 main_v1 ((extractStridedSlice S64x51x56x56 ![0, 51, 0, 0] · slices_S64x256x56x56_S64x51x56x56_0_51_0_0) : (⟨S64x256x56x56, .f32⟩ : BufTy).Contents (Elt F) → (⟨S64x51x56x56, .f32⟩ : BufTy).Contents (Elt F)),
    unary main_arg0 main_v2 ((extractStridedSlice S64x51x56x56 ![0, 102, 0, 0] · slices_S64x256x56x56_S64x51x56x56_0_102_0_0) : (⟨S64x256x56x56, .f32⟩ : BufTy).Contents (Elt F) → (⟨S64x51x56x56, .f32⟩ : BufTy).Contents (Elt F)),
    unary main_arg0 main_v3 ((extractStridedSlice S64x51x56x56 ![0, 153, 0, 0] · slices_S64x256x56x56_S64x51x56x56_0_153_0_0) : (⟨S64x256x56x56, .f32⟩ : BufTy).Contents (Elt F) → (⟨S64x51x56x56, .f32⟩ : BufTy).Contents (Elt F)),
    unary main_arg0 main_v4 ((extractStridedSlice S64x52x56x56 ![0, 204, 0, 0] · slices_S64x256x56x56_S64x52x56x56_0_204_0_0) : (⟨S64x256x56x56, .f32⟩ : BufTy).Contents (Elt F) → (⟨S64x52x56x56, .f32⟩ : BufTy).Contents (Elt F)),
    unary main_v0 main_call0_v0 ((extractStridedSlice S64x51x1x56 ![0, 0, 55, 0] · slices_S64x51x56x56_S64x51x1x56_0_0_55_0) : (⟨S64x51x56x56, .f32⟩ : BufTy).Contents (Elt F) → (⟨S64x51x1x56, .f32⟩ : BufTy).Contents (Elt F)),
    unary main_v0 main_call0_v1 ((extractStridedSlice S64x51x55x56 ![0, 0, 0, 0] · slices_S64x51x56x56_S64x51x55x56_0_0_0_0) : (⟨S64x51x56x56, .f32⟩ : BufTy).Contents (Elt F) → (⟨S64x51x55x56, .f32⟩ : BufTy).Contents (Elt F)),
    binary main_call0_v0 main_call0_v1 main_v5 ((fun a b => concatenate S64x51x56x56 2 [⟨S64x51x1x56, a⟩, ⟨S64x51x55x56, b⟩] concatenates_S64x51x1x56_S64x51x55x56_S64x51x56x56_d2) : (⟨S64x51x1x56, .f32⟩ : BufTy).Contents (Elt F) → (⟨S64x51x55x56, .f32⟩ : BufTy).Contents (Elt F) → (⟨S64x51x56x56, .f32⟩ : BufTy).Contents (Elt F)),
    nullary main_c (constantI S_ 32 0#32),
    unary main_c main_v6 (broadcastInDim S1 ![] bcast_S_S1 : (⟨S_, .i32⟩ : BufTy).Contents (Elt F) → (⟨S1, .i32⟩ : BufTy).Contents (Elt F)),
    nullary main_cst (constant S_ .f32 0x00000000#32),
    unary main_cst main_v7 (broadcastInDim S64x51x56 ![] bcast_S_S64x51x56 : (⟨S_, .f32⟩ : BufTy).Contents (Elt F) → (⟨S64x51x56, .f32⟩ : BufTy).Contents (Elt F)),
    ternary main_v5 main_v6 main_v7 main_v8 ((fun x i u => Host.scatter scatter_S64x51x56x56_S1_S64x51x56_012_2_2_0 (fun _ b => b) x i u) : (⟨S64x51x56x56, .f32⟩ : BufTy).Contents (Elt F) → (⟨S1, .i32⟩ : BufTy).Contents (Elt F) → (⟨S64x51x56, .f32⟩ : BufTy).Contents (Elt F) → (⟨S64x51x56x56, .f32⟩ : BufTy).Contents (Elt F)),
    unary main_v1 main_call1_v0 ((extractStridedSlice S64x51x56x55 ![0, 0, 0, 1] · slices_S64x51x56x56_S64x51x56x55_0_0_0_1) : (⟨S64x51x56x56, .f32⟩ : BufTy).Contents (Elt F) → (⟨S64x51x56x55, .f32⟩ : BufTy).Contents (Elt F)),
    unary main_v1 main_call1_v1 ((extractStridedSlice S64x51x56x1 ![0, 0, 0, 0] · slices_S64x51x56x56_S64x51x56x1_0_0_0_0) : (⟨S64x51x56x56, .f32⟩ : BufTy).Contents (Elt F) → (⟨S64x51x56x1, .f32⟩ : BufTy).Contents (Elt F)),
    binary main_call1_v0 main_call1_v1 main_v9 ((fun a b => concatenate S64x51x56x56 3 [⟨S64x51x56x55, a⟩, ⟨S64x51x56x1, b⟩] concatenates_S64x51x56x55_S64x51x56x1_S64x51x56x56_d3) : (⟨S64x51x56x55, .f32⟩ : BufTy).Contents (Elt F) → (⟨S64x51x56x1, .f32⟩ : BufTy).Contents (Elt F) → (⟨S64x51x56x56, .f32⟩ : BufTy).Contents (Elt F)),
    nullary main_c_0 (constantI S_ 32 55#32),
    unary main_c_0 main_v10 (broadcastInDim S1 ![] bcast_S_S1 : (⟨S_, .i32⟩ : BufTy).Contents (Elt F) → (⟨S1, .i32⟩ : BufTy).Contents (Elt F)),
    nullary main_cst_1 (constant S_ .f32 0x00000000#32),
    unary main_cst_1 main_v11 (broadcastInDim S64x51x56 ![] bcast_S_S64x51x56 : (⟨S_, .f32⟩ : BufTy).Contents (Elt F) → (⟨S64x51x56, .f32⟩ : BufTy).Contents (Elt F)),
    ternary main_v9 main_v10 main_v11 main_v12 ((fun x i u => Host.scatter scatter_S64x51x56x56_S1_S64x51x56_012_3_3_0 (fun _ b => b) x i u) : (⟨S64x51x56x56, .f32⟩ : BufTy).Contents (Elt F) → (⟨S1, .i32⟩ : BufTy).Contents (Elt F) → (⟨S64x51x56, .f32⟩ : BufTy).Contents (Elt F) → (⟨S64x51x56x56, .f32⟩ : BufTy).Contents (Elt F)),
    unary main_v2 main_call2_v0 ((extractStridedSlice S64x51x55x56 ![0, 0, 1, 0] · slices_S64x51x56x56_S64x51x55x56_0_0_1_0) : (⟨S64x51x56x56, .f32⟩ : BufTy).Contents (Elt F) → (⟨S64x51x55x56, .f32⟩ : BufTy).Contents (Elt F)),
    unary main_v2 main_call2_v1 ((extractStridedSlice S64x51x1x56 ![0, 0, 0, 0] · slices_S64x51x56x56_S64x51x1x56_0_0_0_0) : (⟨S64x51x56x56, .f32⟩ : BufTy).Contents (Elt F) → (⟨S64x51x1x56, .f32⟩ : BufTy).Contents (Elt F)),
    binary main_call2_v0 main_call2_v1 main_v13 ((fun a b => concatenate S64x51x56x56 2 [⟨S64x51x55x56, a⟩, ⟨S64x51x1x56, b⟩] concatenates_S64x51x55x56_S64x51x1x56_S64x51x56x56_d2) : (⟨S64x51x55x56, .f32⟩ : BufTy).Contents (Elt F) → (⟨S64x51x1x56, .f32⟩ : BufTy).Contents (Elt F) → (⟨S64x51x56x56, .f32⟩ : BufTy).Contents (Elt F)),
    nullary main_c_2 (constantI S_ 32 55#32),
    unary main_c_2 main_v14 (broadcastInDim S1 ![] bcast_S_S1 : (⟨S_, .i32⟩ : BufTy).Contents (Elt F) → (⟨S1, .i32⟩ : BufTy).Contents (Elt F)),
    nullary main_cst_3 (constant S_ .f32 0x00000000#32),
    unary main_cst_3 main_v15 (broadcastInDim S64x51x56 ![] bcast_S_S64x51x56 : (⟨S_, .f32⟩ : BufTy).Contents (Elt F) → (⟨S64x51x56, .f32⟩ : BufTy).Contents (Elt F)),
    ternary main_v13 main_v14 main_v15 main_v16 ((fun x i u => Host.scatter scatter_S64x51x56x56_S1_S64x51x56_012_2_2_0 (fun _ b => b) x i u) : (⟨S64x51x56x56, .f32⟩ : BufTy).Contents (Elt F) → (⟨S1, .i32⟩ : BufTy).Contents (Elt F) → (⟨S64x51x56, .f32⟩ : BufTy).Contents (Elt F) → (⟨S64x51x56x56, .f32⟩ : BufTy).Contents (Elt F)),
    unary main_v3 main_call3_v0 ((extractStridedSlice S64x51x56x1 ![0, 0, 0, 55] · slices_S64x51x56x56_S64x51x56x1_0_0_0_55) : (⟨S64x51x56x56, .f32⟩ : BufTy).Contents (Elt F) → (⟨S64x51x56x1, .f32⟩ : BufTy).Contents (Elt F)),
    unary main_v3 main_call3_v1 ((extractStridedSlice S64x51x56x55 ![0, 0, 0, 0] · slices_S64x51x56x56_S64x51x56x55_0_0_0_0) : (⟨S64x51x56x56, .f32⟩ : BufTy).Contents (Elt F) → (⟨S64x51x56x55, .f32⟩ : BufTy).Contents (Elt F)),
    binary main_call3_v0 main_call3_v1 main_v17 ((fun a b => concatenate S64x51x56x56 3 [⟨S64x51x56x1, a⟩, ⟨S64x51x56x55, b⟩] concatenates_S64x51x56x1_S64x51x56x55_S64x51x56x56_d3) : (⟨S64x51x56x1, .f32⟩ : BufTy).Contents (Elt F) → (⟨S64x51x56x55, .f32⟩ : BufTy).Contents (Elt F) → (⟨S64x51x56x56, .f32⟩ : BufTy).Contents (Elt F)),
    nullary main_c_4 (constantI S_ 32 0#32),
    unary main_c_4 main_v18 (broadcastInDim S1 ![] bcast_S_S1 : (⟨S_, .i32⟩ : BufTy).Contents (Elt F) → (⟨S1, .i32⟩ : BufTy).Contents (Elt F)),
    nullary main_cst_5 (constant S_ .f32 0x00000000#32),
    unary main_cst_5 main_v19 (broadcastInDim S64x51x56 ![] bcast_S_S64x51x56 : (⟨S_, .f32⟩ : BufTy).Contents (Elt F) → (⟨S64x51x56, .f32⟩ : BufTy).Contents (Elt F)),
    ternary main_v17 main_v18 main_v19 main_v20 ((fun x i u => Host.scatter scatter_S64x51x56x56_S1_S64x51x56_012_3_3_0 (fun _ b => b) x i u) : (⟨S64x51x56x56, .f32⟩ : BufTy).Contents (Elt F) → (⟨S1, .i32⟩ : BufTy).Contents (Elt F) → (⟨S64x51x56, .f32⟩ : BufTy).Contents (Elt F) → (⟨S64x51x56x56, .f32⟩ : BufTy).Contents (Elt F)),
    nary ![main_v8, main_v12, main_v16, main_v20, main_v4] main_v21 (fun u => concatenate S64x256x56x56 1 [⟨S64x51x56x56, u 0⟩, ⟨S64x51x56x56, u 1⟩, ⟨S64x51x56x56, u 2⟩, ⟨S64x51x56x56, u 3⟩, ⟨S64x52x56x56, u 4⟩] concatenates_S64x51x56x56_S64x51x56x56_S64x51x56x56_S64x51x56x56_S64x52x56x56_S64x256x56x56_d1) ]

-- the four rolls' bodies unfolded at their calls, the sequencing re-associated
set_option maxRecDepth 1024 in
/-- @main is the line: the rolls' definitions unfolded at their calls, both sides are one chain of steps. -/
theorem main_eq (c : Dev nD) : main (F := F) c = seq ops := by
  simp only [main, fn_roll_static.body, fn_roll_static_0.body, fn_roll_static_1.body, fn_roll_static_2.body, seq, bind_assoc, pure_bind]
  rfl

/-- The program scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., binary_bufs_sub .., nullary_bufs_sub .., unary_bufs_sub .., nullary_bufs_sub .., unary_bufs_sub .., ternary_bufs_sub .., unary_bufs_sub .., unary_bufs_sub .., binary_bufs_sub .., nullary_bufs_sub .., unary_bufs_sub .., nullary_bufs_sub .., unary_bufs_sub .., ternary_bufs_sub .., unary_bufs_sub .., unary_bufs_sub .., binary_bufs_sub .., nullary_bufs_sub .., unary_bufs_sub .., nullary_bufs_sub .., unary_bufs_sub .., ternary_bufs_sub .., unary_bufs_sub .., unary_bufs_sub .., binary_bufs_sub .., nullary_bufs_sub .., unary_bufs_sub .., nullary_bufs_sub .., unary_bufs_sub .., ternary_bufs_sub .., nary_bufs_sub ..⟩

/-- The last operation's result, each operand's contents read at its own buffer: the join of what the four
    scatters and the fifth slice left. -/
theorem join_result (W : Valuation τ sig (Elt F)) :
    (nary ![main_v8, main_v12, main_v16, main_v20, main_v4] main_v21 (fun u => concatenate S64x256x56x56 1 [⟨S64x51x56x56, u 0⟩, ⟨S64x51x56x56, u 1⟩, ⟨S64x51x56x56, u 2⟩, ⟨S64x51x56x56, u 3⟩, ⟨S64x52x56x56, u 4⟩] concatenates_S64x51x56x56_S64x51x56x56_S64x51x56x56_S64x51x56x56_S64x52x56x56_S64x256x56x56_d1) : HloOp τ sig (Elt F)).result W (Proc.devRef .tc main_v21)
      = concatenate S64x256x56x56 1 [⟨S64x51x56x56, W (Proc.devRef .tc main_v8)⟩, ⟨S64x51x56x56, W (Proc.devRef .tc main_v12)⟩, ⟨S64x51x56x56, W (Proc.devRef .tc main_v16)⟩, ⟨S64x51x56x56, W (Proc.devRef .tc main_v20)⟩, ⟨S64x52x56x56, W (Proc.devRef .tc main_v4)⟩] concatenates_S64x51x56x56_S64x51x56x56_S64x51x56x56_S64x51x56x56_S64x52x56x56_S64x256x56x56_d1 := by
  rw [Cert.Lib.Nary5.nary5_result]
  rfl

/-- On every device, from any memory with zero counters: every weakly fair execution of @main terminates with every
    buffer at the line's fold over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ

/-- No operation writes the argument's buffer. -/
theorem after_arg0 (V : Valuation τ sig (Elt F)) :
    after (ops (F := F)) V (Proc.devRef .tc main_arg0) = V (Proc.devRef .tc main_arg0) := by
  after_results_simp

end Cert.ReferenceIdeal.Line

end
-- ==== Proof.LibScatterSet.lean ====
/-
  A scatter whose body keeps the update ("set"), read at one index.

  `Host.scatter d f x idx upd` is a left fold over the update indices in row-major order: update index `j`
  lands at the operand index `d.resultIdx? j idx` when that is inside the operand, and is dropped otherwise.
  Two readings of the fold at an operand index `i`:

    * `scatter_apply_of_miss`: when no update index lands at `i`, the result at `i` is the operand's element,
      whatever the body `f`;
    * `scatter_set_apply_of_hit`: when the body returns the update (`f = fun _ b => b`) and `j` is the ONLY update
      index that lands at `i`, the result at `i` is the update's element at `j`.

  Both come from two facts about a left fold over a list (`foldl_of_miss`, `foldl_of_hit`), proved by induction on
  the list for any step function that leaves index `i` alone unless the step lands there, and sets it when it does;
  the second uses that the list of positions has no repeats.
-/
import Mathlib
import Idealize.ShloMosaic.PureOps.ShapeOps

namespace Cert.Lib.ScatterSet

open Idealize.ShloMosaic

section Fold

variable {ι α N : Type}

/-- A fold of steps, each of which leaves index `i` alone unless it lands at `i`, leaves `i` alone when no step of the
    list lands there. -/
theorem foldl_of_miss (g : N → Option ι) (step : (ι → α) → N → ι → α) (i : ι)
    (hkeep : ∀ r n, g n ≠ some i → step r n i = r i) :
    ∀ (l : List N) (r : ι → α), (∀ n ∈ l, g n ≠ some i) → l.foldl step r i = r i
  | [], _, _ => rfl
  | a :: t, r, h => by
      rw [List.foldl_cons, foldl_of_miss g step i hkeep t _ fun n hn => h n (List.mem_cons_of_mem _ hn)]
      exact hkeep r a (h a List.mem_cons_self)

/-- A fold of steps, each of which sets index `i` to its own value when it lands at `i` and leaves it alone otherwise,
    holds at `i` the value of the one step `n` of the list that lands there (the list without repeats, so that nothing
    after `n` touches `i` again). -/
theorem foldl_of_hit (g : N → Option ι) (step : (ι → α) → N → ι → α) (v : N → α) (i : ι)
    (hkeep : ∀ r n, g n ≠ some i → step r n i = r i) (hset : ∀ r n, g n = some i → step r n i = v n)
    (n : N) (hn : g n = some i) :
    ∀ (l : List N) (r : ι → α), l.Nodup → n ∈ l → (∀ n' ∈ l, g n' = some i → n' = n) → l.foldl step r i = v n
  | [], _, _, hmem, _ => absurd hmem List.not_mem_nil
  | a :: t, r, hnd, hmem, huniq => by
      rw [List.foldl_cons]
      rw [List.nodup_cons] at hnd
      by_cases hat : a = n
      · subst hat
        rw [foldl_of_miss g step i hkeep t _ fun n' hn' e =>
          hnd.1 (huniq n' (List.mem_cons_of_mem _ hn') e ▸ hn')]
        exact hset r a hn
      · have hmem' : n ∈ t := by
          rcases List.mem_cons.1 hmem with e | e
          · exact absurd e.symm hat
          · exact e
        exact foldl_of_hit g step v i hkeep hset n hn t _ hnd.2 hmem' fun n' hn' e =>
          huniq n' (List.mem_cons_of_mem _ hn') e

end Fold

variable {α : Type} {s si u : Shape} {w : Nat}

/-- One step of a scatter leaves index `i` alone unless its update index lands at `i`. -/
theorem step_keep (d : ScatterDims s si u) (f : α → α → α) (idx : IVec si w) (upd : u.Idx → α) (i : s.Idx)
    (r : s.Idx → α) (n : Fin u.numel) (h : d.resultIdx? (u.rowMajor.symm n) idx ≠ some i) :
    (match d.resultIdx? (u.rowMajor.symm n) idx with
      | some k => fun i' => if i' = k then f (r k) (upd (u.rowMajor.symm n)) else r i'
      | none => r) i = r i := by
  cases hg : d.resultIdx? (u.rowMajor.symm n) idx with
  | none => rfl
  | some k =>
    show (if i = k then f (r k) (upd (u.rowMajor.symm n)) else r i) = r i
    rw [if_neg]
    intro e
    exact h (by rw [hg, e])

/-- One step of a scatter whose body returns the update sets the index its update index lands at to the update's element. -/
theorem step_set (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some k => fun i' => if i' = k then (fun (_ b : α) => b) (r k) (upd (u.rowMajor.symm n)) else r i'
      | none => r) i = upd (u.rowMajor.symm n) := by
  rw [h]
  show (if i = i then upd (u.rowMajor.symm n) else r i) = _
  rw [if_pos rfl]

/-- Where no update index lands, a scatter leaves the operand's element. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  exact foldl_of_miss (fun n => d.resultIdx? (u.rowMajor.symm n) idx) _ i
    (fun r n hn => step_keep d f idx upd i r n hn) _ x fun n _ => h _

/-- Where exactly one update index `j` lands, a scatter whose body returns the update holds the update's element at `j`. -/
theorem scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  unfold Host.scatter
  have h := foldl_of_hit (fun n => d.resultIdx? (u.rowMajor.symm n) idx) _ (fun n => upd (u.rowMajor.symm n)) i
    (fun r n hn => step_keep d (fun _ b => b) idx upd i r n hn) (fun r n hn => step_set d idx upd i r n hn)
    (u.rowMajor j) (by rw [Equiv.symm_apply_apply]; exact hj) (List.finRange u.numel) x (List.nodup_finRange _)
    (List.mem_finRange _) fun n' _ e => by
      have := huniq _ e
      rw [← this, Equiv.apply_symm_apply]
  rw [Equiv.symm_apply_apply] at h
  exact h

end Cert.Lib.ScatterSet
-- ==== Proof.LibScatterLand.lean ====
/-
  Where a scatter's update index lands, as one equation per operand axis.

  `d.resultIdx? j idx` is the operand index that update index `j` lands at: on every operand axis `a` the
  start `d.start j idx a` (read signed off the scatter indices, zero on an axis the map does not name) plus the
  window coordinate `d.window j a`, provided that sum is inside the operand on every axis; otherwise nothing.
  So it is `some i` exactly when the sum is `i`'s coordinate on every axis (a coordinate of `i` is inside by its
  type). With this, "update `j` lands at `i`" is decided axis by axis, by arithmetic on integers.
-/
import Mathlib
import Idealize.ShloMosaic.PureOps.ShapeOps

namespace Cert.Lib.ScatterLand

open Idealize.ShloMosaic

/-- Update index `j` lands at operand index `i` exactly when, on every operand axis, the start plus the window
    coordinate is `i`'s coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e1 := congrFun (Option.some.inj e) a
      have e2 := congrArg Fin.val e1
      have h0 := (h a).1
      simp only at e2
      omega
    · intro hall
      refine congrArg some (funext fun a => Fin.ext ?_)
      have := hall a
      show (d.start j idx a + (d.window j a : Int)).toNat = (i a).val
      omega
  · rename_i h
    constructor
    · intro e; exact absurd e (by simp)
    · intro hall
      exfalso; apply h; intro a
      have := hall a; have := (i a).isLt
      constructor <;> omega

end Cert.Lib.ScatterLand
-- ==== Proof.SlabSet.lean ====
/-
  Setting one row, or one column, of every image plane of a slab [nB, 51, 56, 56] to a constant, written as the
  host writes `x.at[:, :, p, :].set(z)` and `x.at[:, :, :, p].set(z)`: a scatter whose body returns the update,
  with ONE scatter index `p` (a one-element index array), an update array [nB, 51, 56] whose three axes are window
  axes, and the operand's row axis (axis 2), or column axis (axis 3), both the inserted window axis and the axis the
  index names.

  Update index (b, c, k) lands at (b, c, p, k) for the row form and at (b, c, k, p) for the column form: on the
  named axis the start is the index `p` and the window coordinate is 0; on the three other axes the start is 0 and
  the window coordinate is the update's. So the scatter, read at (b, c, h, w), is the update at (b, c, w) when
  h = p (the row form; at (b, c, h) when w = p for the column form) and the operand's element otherwise. Exactly one
  update index lands on an index of the row (column), and none anywhere else.
-/
import Idealize.ShloMosaic.Lib.ValueIdx
import Idealize.ShloMosaic.Lib.Pipeline.Value
import proofs.«112341_j38104949850162_1_alg».proof.Proof.LibScatterSet
import proofs.«112341_j38104949850162_1_alg».proof.Proof.LibScatterLand

namespace Cert.Shift

open Idealize.ShloMosaic Idealize.ShloMosaic.ValueIdx
open Cert.Lib.ScatterSet Cert.Lib.ScatterLand

variable {α : Type} {nB : Nat}

/-- The dimension numbers of the row form: window axes 0, 1, 2 of the update; operand axis 2 inserted and named. -/
abbrev rowDims (wf : ScatterDims.WF (⟨4, ![nB, 51, 56, 56]⟩ : Shape) (⟨1, ![1]⟩ : Shape) (⟨3, ![nB, 51, 56]⟩ : Shape) [0, 1, 2] [2] [2] 0) :
    ScatterDims (⟨4, ![nB, 51, 56, 56]⟩ : Shape) (⟨1, ![1]⟩ : Shape) (⟨3, ![nB, 51, 56]⟩ : Shape) :=
  ⟨[0, 1, 2], [2], [2], 0, wf⟩

/-- The dimension numbers of the column form: window axes 0, 1, 2 of the update; operand axis 3 inserted and named. -/
abbrev colDims (wf : ScatterDims.WF (⟨4, ![nB, 51, 56, 56]⟩ : Shape) (⟨1, ![1]⟩ : Shape) (⟨3, ![nB, 51, 56]⟩ : Shape) [0, 1, 2] [3] [3] 0) :
    ScatterDims (⟨4, ![nB, 51, 56, 56]⟩ : Shape) (⟨1, ![1]⟩ : Shape) (⟨3, ![nB, 51, 56]⟩ : Shape) :=
  ⟨[0, 1, 2], [3], [3], 0, wf⟩

section Row

variable (wf : ScatterDims.WF (⟨4, ![nB, 51, 56, 56]⟩ : Shape) (⟨1, ![1]⟩ : Shape) (⟨3, ![nB, 51, 56]⟩ : Shape) [0, 1, 2] [2] [2] 0)
variable (idx : IVec (⟨1, ![1]⟩ : Shape) 32) (p : Fin 56) (hidx : ∀ k, (idx k).toInt = (p.val : Int))
include hidx

/-- Update index `j` lands at (j 0, j 1, p, j 2), and nowhere else. -/
theorem row_lands (j : (⟨3, ![nB, 51, 56]⟩ : Shape).Idx) (i : (⟨4, ![nB, 51, 56, 56]⟩ : Shape).Idx) :
    (rowDims wf).resultIdx? j idx = some i ↔ i = ix4 (j 0) (j 1) p (j 2) := by
  have s0 : (rowDims wf).start j idx 0 = 0 := rfl
  have s1 : (rowDims wf).start j idx 1 = 0 := rfl
  have s2 : (rowDims wf).start j idx 2 = (p.val : Int) := by
    unfold ScatterDims.start
    rw [dif_pos (List.mem_singleton.2 rfl)]
    exact hidx _
  have s3 : (rowDims wf).start j idx 3 = 0 := rfl
  have w0 : (rowDims wf).window j 0 = (j 0).val := rfl
  have w1 : (rowDims wf).window j 1 = (j 1).val := rfl
  have w2 : (rowDims wf).window j 2 = 0 := rfl
  have w3 : (rowDims wf).window j 3 = (j 2).val := rfl
  rw [resultIdx?_eq_some_iff]
  constructor
  · intro hall
    have e0 := hall 0; have e1 := hall 1; have e2 := hall 2; have e3 := hall 3
    rw [s0, w0] at e0; rw [s1, w1] at e1; rw [s2, w2] at e2; rw [s3, w3] at e3
    funext a
    match a with
    | ⟨0, _⟩ => exact Fin.ext (by show (i 0).val = (j 0).val; omega)
    | ⟨1, _⟩ => exact Fin.ext (by show (i 1).val = (j 1).val; omega)
    | ⟨2, _⟩ => exact Fin.ext (by show (i 2).val = p.val; omega)
    | ⟨3, _⟩ => exact Fin.ext (by show (i 3).val = (j 2).val; omega)
  · intro e a
    subst e
    match a with
    | ⟨0, _⟩ => show (rowDims wf).start j idx 0 + ((rowDims wf).window j 0 : Int) = ((j 0).val : Int); rw [s0, w0]; omega
    | ⟨1, _⟩ => show (rowDims wf).start j idx 1 + ((rowDims wf).window j 1 : Int) = ((j 1).val : Int); rw [s1, w1]; omega
    | ⟨2, _⟩ => show (rowDims wf).start j idx 2 + ((rowDims wf).window j 2 : Int) = (p.val : Int); rw [s2, w2]; omega
    | ⟨3, _⟩ => show (rowDims wf).start j idx 3 + ((rowDims wf).window j 3 : Int) = ((j 2).val : Int); rw [s3, w3]; omega

/-- The row form read at (b, c, h, w): the constant on row `p`, the operand elsewhere. -/
theorem setRow_apply (z : α) (x : (⟨4, ![nB, 51, 56, 56]⟩ : Shape).Idx → α)
    (upd : (⟨3, ![nB, 51, 56]⟩ : Shape).Idx → α) (hupd : ∀ j, upd j = z)
    (b : Fin nB) (c : Fin 51) (h w : Fin 56) :
    Host.scatter (rowDims wf) (fun _ u => u) x idx upd (ix4 b c h w) = if h = p then z else x (ix4 b c h w) := by
  by_cases hp : h = p
  · rw [if_pos hp]
    rw [scatter_set_apply_of_hit (rowDims wf) x idx upd (ix4 b c h w) (ix3 b c w)
      ((row_lands wf idx p hidx _ _).2 (by rw [hp]; rfl))
      (fun j' hj' => by
        have e := (row_lands wf idx p hidx _ _).1 hj'
        have e0 : b = j' 0 := congrFun e 0
        have e1 : c = j' 1 := congrFun e 1
        have e3 : w = j' 2 := congrFun e 3
        rw [eq_ix3 j', ← e0, ← e1, ← e3]; rfl)]
    exact hupd _
  · rw [if_neg hp]
    refine scatter_apply_of_miss (rowDims wf) _ x idx upd (ix4 b c h w) (fun j hj => hp ?_)
    have e := (row_lands wf idx p hidx _ _).1 hj
    exact congrFun e 2

end Row

section Col

variable (wf : ScatterDims.WF (⟨4, ![nB, 51, 56, 56]⟩ : Shape) (⟨1, ![1]⟩ : Shape) (⟨3, ![nB, 51, 56]⟩ : Shape) [0, 1, 2] [3] [3] 0)
variable (idx : IVec (⟨1, ![1]⟩ : Shape) 32) (p : Fin 56) (hidx : ∀ k, (idx k).toInt = (p.val : Int))
include hidx

/-- Update index `j` lands at (j 0, j 1, j 2, p), and nowhere else. -/
theorem col_lands (j : (⟨3, ![nB, 51, 56]⟩ : Shape).Idx) (i : (⟨4, ![nB, 51, 56, 56]⟩ : Shape).Idx) :
    (colDims wf).resultIdx? j idx = some i ↔ i = ix4 (j 0) (j 1) (j 2) p := by
  have s0 : (colDims wf).start j idx 0 = 0 := rfl
  have s1 : (colDims wf).start j idx 1 = 0 := rfl
  have s2 : (colDims wf).start j idx 2 = 0 := rfl
  have s3 : (colDims wf).start j idx 3 = (p.val : Int) := by
    unfold ScatterDims.start
    rw [dif_pos (List.mem_singleton.2 rfl)]
    exact hidx _
  have w0 : (colDims wf).window j 0 = (j 0).val := rfl
  have w1 : (colDims wf).window j 1 = (j 1).val := rfl
  have w2 : (colDims wf).window j 2 = (j 2).val := rfl
  have w3 : (colDims wf).window j 3 = 0 := rfl
  rw [resultIdx?_eq_some_iff]
  constructor
  · intro hall
    have e0 := hall 0; have e1 := hall 1; have e2 := hall 2; have e3 := hall 3
    rw [s0, w0] at e0; rw [s1, w1] at e1; rw [s2, w2] at e2; rw [s3, w3] at e3
    funext a
    match a with
    | ⟨0, _⟩ => exact Fin.ext (by show (i 0).val = (j 0).val; omega)
    | ⟨1, _⟩ => exact Fin.ext (by show (i 1).val = (j 1).val; omega)
    | ⟨2, _⟩ => exact Fin.ext (by show (i 2).val = (j 2).val; omega)
    | ⟨3, _⟩ => exact Fin.ext (by show (i 3).val = p.val; omega)
  · intro e a
    subst e
    match a with
    | ⟨0, _⟩ => show (colDims wf).start j idx 0 + ((colDims wf).window j 0 : Int) = ((j 0).val : Int); rw [s0, w0]; omega
    | ⟨1, _⟩ => show (colDims wf).start j idx 1 + ((colDims wf).window j 1 : Int) = ((j 1).val : Int); rw [s1, w1]; omega
    | ⟨2, _⟩ => show (colDims wf).start j idx 2 + ((colDims wf).window j 2 : Int) = ((j 2).val : Int); rw [s2, w2]; omega
    | ⟨3, _⟩ => show (colDims wf).start j idx 3 + ((colDims wf).window j 3 : Int) = (p.val : Int); rw [s3, w3]; omega

/-- The column form read at (b, c, h, w): the constant on column `p`, the operand elsewhere. -/
theorem setCol_apply (z : α) (x : (⟨4, ![nB, 51, 56, 56]⟩ : Shape).Idx → α)
    (upd : (⟨3, ![nB, 51, 56]⟩ : Shape).Idx → α) (hupd : ∀ j, upd j = z)
    (b : Fin nB) (c : Fin 51) (h w : Fin 56) :
    Host.scatter (colDims wf) (fun _ u => u) x idx upd (ix4 b c h w) = if w = p then z else x (ix4 b c h w) := by
  by_cases hp : w = p
  · rw [if_pos hp]
    rw [scatter_set_apply_of_hit (colDims wf) x idx upd (ix4 b c h w) (ix3 b c h)
      ((col_lands wf idx p hidx _ _).2 (by rw [hp]; rfl))
      (fun j' hj' => by
        have e := (col_lands wf idx p hidx _ _).1 hj'
        have e0 : b = j' 0 := congrFun e 0
        have e1 : c = j' 1 := congrFun e 1
        have e2 : h = j' 2 := congrFun e 2
        rw [eq_ix3 j', ← e0, ← e1, ← e2]; rfl)]
    exact hupd _
  · rw [if_neg hp]
    refine scatter_apply_of_miss (colDims wf) _ x idx upd (ix4 b c h w) (fun j hj => hp ?_)
    have e := (col_lands wf idx p hidx _ _).1 hj
    exact congrFun e 3

end Col

end Cert.Shift
-- ==== Proof.SlabRollSet.lean ====
/-
  The host's shift of a slab [nB, 51, 56, 56]: a roll by one along a spatial axis (the wrapped-around row or column
  joined to the 55 that move) followed by setting the row or column the wrap landed on to a constant `z`.
  Read at (b, c, h, w) each of the four is `z` on that border and the slab's neighbour elsewhere — the same
  functions as the kernel's zero-padded joins:

    * `rollSetTop`    : [wrapped row, rows 0-54], row 0 set        — `z` at h = 0, else `v` at (b, c, h - 1, w);
    * `rollSetRight`  : [columns 1-55, wrapped column], column 55 set — `z` at w = 55, else `v` at (b, c, h, w + 1);
    * `rollSetBottom` : [rows 1-55, wrapped row], row 55 set       — `z` at h = 55, else `v` at (b, c, h + 1, w);
    * `rollSetLeft`   : [wrapped column, columns 0-54], column 0 set — `z` at w = 0, else `v` at (b, c, h, w - 1).

  The set overwrites exactly the strip the wrap filled, so what the wrap put there (`y`) never shows.
-/
import proofs.«112341_j38104949850162_1_alg».proof.Proof.SlabShift
import proofs.«112341_j38104949850162_1_alg».proof.Proof.SlabSet

namespace Cert.Shift

open Idealize.ShloMosaic Idealize.ShloMosaic.ValueIdx

variable {α : Type} {nB : Nat}

/-- Roll down, then set row 0. -/
theorem rollSetTop_apply (wf : ScatterDims.WF (⟨4, ![nB, 51, 56, 56]⟩ : Shape) (⟨1, ![1]⟩ : Shape) (⟨3, ![nB, 51, 56]⟩ : Shape) [0, 1, 2] [2] [2] 0)
    (idx : IVec (⟨1, ![1]⟩ : Shape) 32) (p : Fin 56) (hp : p.val = 0) (hidx : ∀ k, (idx k).toInt = (p.val : Int))
    (z : α) (upd : (⟨3, ![nB, 51, 56]⟩ : Shape).Idx → α) (hupd : ∀ j, upd j = z)
    (y : (⟨4, ![nB, 51, 1, 56]⟩ : Shape).Idx → α) (v : (⟨4, ![nB, 51, 56, 56]⟩ : Shape).Idx → α)
    (hs : (⟨4, ![nB, 51, 56, 56]⟩ : Shape).Slices ![0, 0, 0, 0] ⟨4, ![nB, 51, 55, 56]⟩)
    (hc : Shape.Concatenates [(⟨4, ![nB, 51, 1, 56]⟩ : Shape), ⟨4, ![nB, 51, 55, 56]⟩] ⟨4, ![nB, 51, 56, 56]⟩ 2)
    (b : Fin nB) (c : Fin 51) (h w : Fin 56) :
    Host.scatter (rowDims wf) (fun _ u => u)
        (concatenate ⟨4, ![nB, 51, 56, 56]⟩ 2 [⟨⟨4, ![nB, 51, 1, 56]⟩, y⟩, ⟨⟨4, ![nB, 51, 55, 56]⟩, extractStridedSlice ⟨4, ![nB, 51, 55, 56]⟩ ![0, 0, 0, 0] v hs⟩] hc) idx upd (ix4 b c h w)
      = if hh : h.val = 0 then z else v (ix4 b c ⟨h.val - 1, by have := h.isLt; omega⟩ w) := by
  refine (setRow_apply wf idx p hidx z _ upd hupd b c h w).trans ?_
  by_cases hh : h.val = 0
  · rw [dif_pos hh, if_pos (Fin.ext (hh.trans hp.symm))]
  · rw [dif_neg hh, if_neg (fun e => hh (by rw [e]; exact hp))]
    exact afterStripRows_apply y v hs hc b c h w hh

/-- Roll left, then set column 55. -/
theorem rollSetRight_apply (wf : ScatterDims.WF (⟨4, ![nB, 51, 56, 56]⟩ : Shape) (⟨1, ![1]⟩ : Shape) (⟨3, ![nB, 51, 56]⟩ : Shape) [0, 1, 2] [3] [3] 0)
    (idx : IVec (⟨1, ![1]⟩ : Shape) 32) (p : Fin 56) (hp : p.val = 55) (hidx : ∀ k, (idx k).toInt = (p.val : Int))
    (z : α) (upd : (⟨3, ![nB, 51, 56]⟩ : Shape).Idx → α) (hupd : ∀ j, upd j = z)
    (y : (⟨4, ![nB, 51, 56, 1]⟩ : Shape).Idx → α) (v : (⟨4, ![nB, 51, 56, 56]⟩ : Shape).Idx → α)
    (hs : (⟨4, ![nB, 51, 56, 56]⟩ : Shape).Slices ![0, 0, 0, 1] ⟨4, ![nB, 51, 56, 55]⟩)
    (hc : Shape.Concatenates [(⟨4, ![nB, 51, 56, 55]⟩ : Shape), ⟨4, ![nB, 51, 56, 1]⟩] ⟨4, ![nB, 51, 56, 56]⟩ 3)
    (b : Fin nB) (c : Fin 51) (h w : Fin 56) :
    Host.scatter (colDims wf) (fun _ u => u)
        (concatenate ⟨4, ![nB, 51, 56, 56]⟩ 3 [⟨⟨4, ![nB, 51, 56, 55]⟩, extractStridedSlice ⟨4, ![nB, 51, 56, 55]⟩ ![0, 0, 0, 1] v hs⟩, ⟨⟨4, ![nB, 51, 56, 1]⟩, y⟩] hc) idx upd (ix4 b c h w)
      = if hw : w.val = 55 then z else v (ix4 b c h ⟨w.val + 1, by have := w.isLt; omega⟩) := by
  refine (setCol_apply wf idx p hidx z _ upd hupd b c h w).trans ?_
  by_cases hw : w.val = 55
  · rw [dif_pos hw, if_pos (Fin.ext (hw.trans hp.symm))]
  · rw [dif_neg hw, if_neg (fun e => hw (by rw [e]; exact hp))]
    exact beforeStripCols_apply y v hs hc b c h w hw

/-- Roll up, then set row 55. -/
theorem rollSetBottom_apply (wf : ScatterDims.WF (⟨4, ![nB, 51, 56, 56]⟩ : Shape) (⟨1, ![1]⟩ : Shape) (⟨3, ![nB, 51, 56]⟩ : Shape) [0, 1, 2] [2] [2] 0)
    (idx : IVec (⟨1, ![1]⟩ : Shape) 32) (p : Fin 56) (hp : p.val = 55) (hidx : ∀ k, (idx k).toInt = (p.val : Int))
    (z : α) (upd : (⟨3, ![nB, 51, 56]⟩ : Shape).Idx → α) (hupd : ∀ j, upd j = z)
    (y : (⟨4, ![nB, 51, 1, 56]⟩ : Shape).Idx → α) (v : (⟨4, ![nB, 51, 56, 56]⟩ : Shape).Idx → α)
    (hs : (⟨4, ![nB, 51, 56, 56]⟩ : Shape).Slices ![0, 0, 1, 0] ⟨4, ![nB, 51, 55, 56]⟩)
    (hc : Shape.Concatenates [(⟨4, ![nB, 51, 55, 56]⟩ : Shape), ⟨4, ![nB, 51, 1, 56]⟩] ⟨4, ![nB, 51, 56, 56]⟩ 2)
    (b : Fin nB) (c : Fin 51) (h w : Fin 56) :
    Host.scatter (rowDims wf) (fun _ u => u)
        (concatenate ⟨4, ![nB, 51, 56, 56]⟩ 2 [⟨⟨4, ![nB, 51, 55, 56]⟩, extractStridedSlice ⟨4, ![nB, 51, 55, 56]⟩ ![0, 0, 1, 0] v hs⟩, ⟨⟨4, ![nB, 51, 1, 56]⟩, y⟩] hc) idx upd (ix4 b c h w)
      = if hh : h.val = 55 then z else v (ix4 b c ⟨h.val + 1, by have := h.isLt; omega⟩ w) := by
  refine (setRow_apply wf idx p hidx z _ upd hupd b c h w).trans ?_
  by_cases hh : h.val = 55
  · rw [dif_pos hh, if_pos (Fin.ext (hh.trans hp.symm))]
  · rw [dif_neg hh, if_neg (fun e => hh (by rw [e]; exact hp))]
    exact beforeStripRows_apply y v hs hc b c h w hh

/-- Roll right, then set column 0. -/
theorem rollSetLeft_apply (wf : ScatterDims.WF (⟨4, ![nB, 51, 56, 56]⟩ : Shape) (⟨1, ![1]⟩ : Shape) (⟨3, ![nB, 51, 56]⟩ : Shape) [0, 1, 2] [3] [3] 0)
    (idx : IVec (⟨1, ![1]⟩ : Shape) 32) (p : Fin 56) (hp : p.val = 0) (hidx : ∀ k, (idx k).toInt = (p.val : Int))
    (z : α) (upd : (⟨3, ![nB, 51, 56]⟩ : Shape).Idx → α) (hupd : ∀ j, upd j = z)
    (y : (⟨4, ![nB, 51, 56, 1]⟩ : Shape).Idx → α) (v : (⟨4, ![nB, 51, 56, 56]⟩ : Shape).Idx → α)
    (hs : (⟨4, ![nB, 51, 56, 56]⟩ : Shape).Slices ![0, 0, 0, 0] ⟨4, ![nB, 51, 56, 55]⟩)
    (hc : Shape.Concatenates [(⟨4, ![nB, 51, 56, 1]⟩ : Shape), ⟨4, ![nB, 51, 56, 55]⟩] ⟨4, ![nB, 51, 56, 56]⟩ 3)
    (b : Fin nB) (c : Fin 51) (h w : Fin 56) :
    Host.scatter (colDims wf) (fun _ u => u)
        (concatenate ⟨4, ![nB, 51, 56, 56]⟩ 3 [⟨⟨4, ![nB, 51, 56, 1]⟩, y⟩, ⟨⟨4, ![nB, 51, 56, 55]⟩, extractStridedSlice ⟨4, ![nB, 51, 56, 55]⟩ ![0, 0, 0, 0] v hs⟩] hc) idx upd (ix4 b c h w)
      = if hw : w.val = 0 then z else v (ix4 b c h ⟨w.val - 1, by have := w.isLt; omega⟩) := by
  refine (setCol_apply wf idx p hidx z _ upd hupd b c h w).trans ?_
  by_cases hw : w.val = 0
  · rw [dif_pos hw, if_pos (Fin.ext (hw.trans hp.symm))]
  · rw [dif_neg hw, if_neg (fun e => hw (by rw [e]; exact hp))]
    exact afterStripCols_apply y v hs hc b c h w hw

end Cert.Shift
-- ==== Proof.SlabJoin.lean ====
/-
  Five channel groups joined along the channel axis: four slabs of 51 channels and one of 52 make a batch
  [nB, 256, 56, 56]. A channel `o + c` of the batch, with `o` the first channel of group k (0, 51, 102, 153, 204),
  reads piece k at channel `c`; the other coordinates are kept.
-/
import Idealize.ShloMosaic.Lib.ValueIdx
import Idealize.ShloMosaic.Lib.Pipeline.Value

namespace Cert.Shift

open Idealize.ShloMosaic Idealize.ShloMosaic.ValueIdx

variable {α : Type} {nB : Nat}
variable (x0 x1 x2 x3 : (⟨4, ![nB, 51, 56, 56]⟩ : Shape).Idx → α) (x4 : (⟨4, ![nB, 52, 56, 56]⟩ : Shape).Idx → α)
variable (hc : Shape.Concatenates [(⟨4, ![nB, 51, 56, 56]⟩ : Shape), ⟨4, ![nB, 51, 56, 56]⟩, ⟨4, ![nB, 51, 56, 56]⟩, ⟨4, ![nB, 51, 56, 56]⟩, ⟨4, ![nB, 52, 56, 56]⟩] ⟨4, ![nB, 256, 56, 56]⟩ 1)

/-- A channel of group 0 (channels from 0 on) reads piece 0. -/
theorem join_group0 (b : Fin nB) (c : Fin 51) (h w : Fin 56) :
    concatenate ⟨4, ![nB, 256, 56, 56]⟩ 1 [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
        (ix4 b (⟨0 + c.val, Nat.lt_of_lt_of_le (Nat.add_lt_add_left c.isLt 0) (by decide : 0 + 51 ≤ 256)⟩ : Fin 256) h w)
      = x0 (ix4 b c h w) :=
  concatenate_apply_piece (t := ⟨4, ![nB, 256, 56, 56]⟩) (1 : Fin 4) [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
    (ix4 b (⟨0 + c.val, Nat.lt_of_lt_of_le (Nat.add_lt_add_left c.isLt 0) (by decide : 0 + 51 ≤ 256)⟩ : Fin 256) h w)
    0 (by show (0 : Nat) < 5; omega) ⟨4, ![nB, 51, 56, 56]⟩ x0 rfl rfl 0 rfl (ix4 b c h w)
    (fun a => match a with
      | ⟨0, _⟩ => fun _ => rfl
      | ⟨1, _⟩ => fun hne => absurd rfl hne
      | ⟨2, _⟩ => fun _ => rfl
      | ⟨3, _⟩ => fun _ => rfl)
    (by show 0 + c.val = 0 + c.val; rfl)

/-- A channel of group 1 (channels from 51 on) reads piece 1. -/
theorem join_group1 (b : Fin nB) (c : Fin 51) (h w : Fin 56) :
    concatenate ⟨4, ![nB, 256, 56, 56]⟩ 1 [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
        (ix4 b (⟨51 + c.val, Nat.lt_of_lt_of_le (Nat.add_lt_add_left c.isLt 51) (by decide : 51 + 51 ≤ 256)⟩ : Fin 256) h w)
      = x1 (ix4 b c h w) :=
  concatenate_apply_piece (t := ⟨4, ![nB, 256, 56, 56]⟩) (1 : Fin 4) [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
    (ix4 b (⟨51 + c.val, Nat.lt_of_lt_of_le (Nat.add_lt_add_left c.isLt 51) (by decide : 51 + 51 ≤ 256)⟩ : Fin 256) h w)
    1 (by show (1 : Nat) < 5; omega) ⟨4, ![nB, 51, 56, 56]⟩ x1 rfl rfl 51 rfl (ix4 b c h w)
    (fun a => match a with
      | ⟨0, _⟩ => fun _ => rfl
      | ⟨1, _⟩ => fun hne => absurd rfl hne
      | ⟨2, _⟩ => fun _ => rfl
      | ⟨3, _⟩ => fun _ => rfl)
    (by show 51 + c.val = 51 + c.val; rfl)

/-- A channel of group 2 (channels from 102 on) reads piece 2. -/
theorem join_group2 (b : Fin nB) (c : Fin 51) (h w : Fin 56) :
    concatenate ⟨4, ![nB, 256, 56, 56]⟩ 1 [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
        (ix4 b (⟨102 + c.val, Nat.lt_of_lt_of_le (Nat.add_lt_add_left c.isLt 102) (by decide : 102 + 51 ≤ 256)⟩ : Fin 256) h w)
      = x2 (ix4 b c h w) :=
  concatenate_apply_piece (t := ⟨4, ![nB, 256, 56, 56]⟩) (1 : Fin 4) [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
    (ix4 b (⟨102 + c.val, Nat.lt_of_lt_of_le (Nat.add_lt_add_left c.isLt 102) (by decide : 102 + 51 ≤ 256)⟩ : Fin 256) h w)
    2 (by show (2 : Nat) < 5; omega) ⟨4, ![nB, 51, 56, 56]⟩ x2 rfl rfl 102 rfl (ix4 b c h w)
    (fun a => match a with
      | ⟨0, _⟩ => fun _ => rfl
      | ⟨1, _⟩ => fun hne => absurd rfl hne
      | ⟨2, _⟩ => fun _ => rfl
      | ⟨3, _⟩ => fun _ => rfl)
    (by show 102 + c.val = 102 + c.val; rfl)

/-- A channel of group 3 (channels from 153 on) reads piece 3. -/
theorem join_group3 (b : Fin nB) (c : Fin 51) (h w : Fin 56) :
    concatenate ⟨4, ![nB, 256, 56, 56]⟩ 1 [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
        (ix4 b (⟨153 + c.val, Nat.lt_of_lt_of_le (Nat.add_lt_add_left c.isLt 153) (by decide : 153 + 51 ≤ 256)⟩ : Fin 256) h w)
      = x3 (ix4 b c h w) :=
  concatenate_apply_piece (t := ⟨4, ![nB, 256, 56, 56]⟩) (1 : Fin 4) [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
    (ix4 b (⟨153 + c.val, Nat.lt_of_lt_of_le (Nat.add_lt_add_left c.isLt 153) (by decide : 153 + 51 ≤ 256)⟩ : Fin 256) h w)
    3 (by show (3 : Nat) < 5; omega) ⟨4, ![nB, 51, 56, 56]⟩ x3 rfl rfl 153 rfl (ix4 b c h w)
    (fun a => match a with
      | ⟨0, _⟩ => fun _ => rfl
      | ⟨1, _⟩ => fun hne => absurd rfl hne
      | ⟨2, _⟩ => fun _ => rfl
      | ⟨3, _⟩ => fun _ => rfl)
    (by show 153 + c.val = 153 + c.val; rfl)

/-- A channel of group 4 (channels from 204 on) reads piece 4. -/
theorem join_group4 (b : Fin nB) (c : Fin 52) (h w : Fin 56) :
    concatenate ⟨4, ![nB, 256, 56, 56]⟩ 1 [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
        (ix4 b (⟨204 + c.val, Nat.lt_of_lt_of_le (Nat.add_lt_add_left c.isLt 204) (by decide : 204 + 52 ≤ 256)⟩ : Fin 256) h w)
      = x4 (ix4 b c h w) :=
  concatenate_apply_piece (t := ⟨4, ![nB, 256, 56, 56]⟩) (1 : Fin 4) [⟨⟨4, ![nB, 51, 56, 56]⟩, x0⟩, ⟨⟨4, ![nB, 51, 56, 56]⟩, x1⟩, ⟨⟨4, ![nB, 51, 56, 56]⟩, x2⟩, ⟨⟨4, ![nB, 51, 56, 56]⟩, x3⟩, ⟨⟨4, ![nB, 52, 56, 56]⟩, x4⟩] hc
    (ix4 b (⟨204 + c.val, Nat.lt_of_lt_of_le (Nat.add_lt_add_left c.isLt 204) (by decide : 204 + 52 ≤ 256)⟩ : Fin 256) h w)
    4 (by show (4 : Nat) < 5; omega) ⟨4, ![nB, 52, 56, 56]⟩ x4 rfl rfl 204 rfl (ix4 b c h w)
    (fun a => match a with
      | ⟨0, _⟩ => fun _ => rfl
      | ⟨1, _⟩ => fun hne => absurd rfl hne
      | ⟨2, _⟩ => fun _ => rfl
      | ⟨3, _⟩ => fun _ => rfl)
    (by show 204 + c.val = 204 + c.val; rfl)

end Cert.Shift
-- ==== Proof.RefShift.lean ====
/-
  The reference's result, as one term of its argument array, is the shifted array.

  `result X` is what the reference's line of operations computes from the argument array `X`: the join, along the
  channel axis, of four rolled-and-set slabs and the fifth slab untouched. Read at (b, c, h, w): the channel `c`
  falls in one of the five groups, the join reads that group's piece at channel `c` less the group's first, and
  that piece is the group's shift of the group's slab of `X` — the same five statements the kernel's pieces meet.
-/
import proofs.«112341_j38104949850162_1_alg».proof.Proof.Gen.ReferenceIdeal
import Idealize.ShloMosaic.Lib.ValueIdx
import Idealize.ShloMosaic.Lib.Pipeline.Value
import proofs.«112341_j38104949850162_1_alg».proof.Proof.ShiftSpec
import proofs.«112341_j38104949850162_1_alg».proof.Proof.SlabCut
import proofs.«112341_j38104949850162_1_alg».proof.Proof.SlabRollSet
import proofs.«112341_j38104949850162_1_alg».proof.Proof.SlabJoin

noncomputable section

namespace Cert.ReferenceIdeal.Result

open Cert.ReferenceIdeal Cert.ReferenceIdeal.Gen Idealize.ShloMosaic Idealize.ShloMosaic.TcCoe
open Idealize.ShloMosaic.ValueIdx Cert.Shift

variable {F : FTy → Type} [FloatOps F]

/-- The value the reference sets the borders to: the all-zero word read as a float. -/
abbrev zeroF : F .f32 := FloatOps.ofBits .f32 0x00000000#32

/-- The reference's result as a term of its argument array. -/
def result (X : (⟨S64x256x56x56, .f32⟩ : BufTy).Contents (Elt F)) : (⟨S64x256x56x56, .f32⟩ : BufTy).Contents (Elt F) :=
  concatenate S64x256x56x56 1 [⟨S64x51x56x56, (Host.scatter scatter_S64x51x56x56_S1_S64x51x56_012_2_2_0 (fun _ b => b) (concatenate S64x51x56x56 2 [⟨S64x51x1x56, (extractStridedSlice S64x51x1x56 ![0, 0, 55, 0] (extractStridedSlice S64x51x56x56 ![0, 0, 0, 0] X slices_S64x256x56x56_S64x51x56x56_0_0_0_0) slices_S64x51x56x56_S64x51x1x56_0_0_55_0)⟩, ⟨S64x51x55x56, (extractStridedSlice S64x51x55x56 ![0, 0, 0, 0] (extractStridedSlice S64x51x56x56 ![0, 0, 0, 0] X slices_S64x256x56x56_S64x51x56x56_0_0_0_0) slices_S64x51x56x56_S64x51x55x56_0_0_0_0)⟩] concatenates_S64x51x1x56_S64x51x55x56_S64x51x56x56_d2) (broadcastInDim S1 ![] bcast_S_S1 (constantI S_ 32 0#32)) (broadcastInDim S64x51x56 ![] bcast_S_S64x51x56 (constant S_ .f32 0x00000000#32)))⟩, ⟨S64x51x56x56, (Host.scatter scatter_S64x51x56x56_S1_S64x51x56_012_3_3_0 (fun _ b => b) (concatenate S64x51x56x56 3 [⟨S64x51x56x55, (extractStridedSlice S64x51x56x55 ![0, 0, 0, 1] (extractStridedSlice S64x51x56x56 ![0, 51, 0, 0] X slices_S64x256x56x56_S64x51x56x56_0_51_0_0) slices_S64x51x56x56_S64x51x56x55_0_0_0_1)⟩, ⟨S64x51x56x1, (extractStridedSlice S64x51x56x1 ![0, 0, 0, 0] (extractStridedSlice S64x51x56x56 ![0, 51, 0, 0] X slices_S64x256x56x56_S64x51x56x56_0_51_0_0) slices_S64x51x56x56_S64x51x56x1_0_0_0_0)⟩] concatenates_S64x51x56x55_S64x51x56x1_S64x51x56x56_d3) (broadcastInDim S1 ![] bcast_S_S1 (constantI S_ 32 55#32)) (broadcastInDim S64x51x56 ![] bcast_S_S64x51x56 (constant S_ .f32 0x00000000#32)))⟩, ⟨S64x51x56x56, (Host.scatter scatter_S64x51x56x56_S1_S64x51x56_012_2_2_0 (fun _ b => b) (concatenate S64x51x56x56 2 [⟨S64x51x55x56, (extractStridedSlice S64x51x55x56 ![0, 0, 1, 0] (extractStridedSlice S64x51x56x56 ![0, 102, 0, 0] X slices_S64x256x56x56_S64x51x56x56_0_102_0_0) slices_S64x51x56x56_S64x51x55x56_0_0_1_0)⟩, ⟨S64x51x1x56, (extractStridedSlice S64x51x1x56 ![0, 0, 0, 0] (extractStridedSlice S64x51x56x56 ![0, 102, 0, 0] X slices_S64x256x56x56_S64x51x56x56_0_102_0_0) slices_S64x51x56x56_S64x51x1x56_0_0_0_0)⟩] concatenates_S64x51x55x56_S64x51x1x56_S64x51x56x56_d2) (broadcastInDim S1 ![] bcast_S_S1 (constantI S_ 32 55#32)) (broadcastInDim S64x51x56 ![] bcast_S_S64x51x56 (constant S_ .f32 0x00000000#32)))⟩, ⟨S64x51x56x56, (Host.scatter scatter_S64x51x56x56_S1_S64x51x56_012_3_3_0 (fun _ b => b) (concatenate S64x51x56x56 3 [⟨S64x51x56x1, (extractStridedSlice S64x51x56x1 ![0, 0, 0, 55] (extractStridedSlice S64x51x56x56 ![0, 153, 0, 0] X slices_S64x256x56x56_S64x51x56x56_0_153_0_0) slices_S64x51x56x56_S64x51x56x1_0_0_0_55)⟩, ⟨S64x51x56x55, (extractStridedSlice S64x51x56x55 ![0, 0, 0, 0] (extractStridedSlice S64x51x56x56 ![0, 153, 0, 0] X slices_S64x256x56x56_S64x51x56x56_0_153_0_0) slices_S64x51x56x56_S64x51x56x55_0_0_0_0)⟩] concatenates_S64x51x56x1_S64x51x56x55_S64x51x56x56_d3) (broadcastInDim S1 ![] bcast_S_S1 (constantI S_ 32 0#32)) (broadcastInDim S64x51x56 ![] bcast_S_S64x51x56 (constant S_ .f32 0x00000000#32)))⟩, ⟨S64x52x56x56, (extractStridedSlice S64x52x56x56 ![0, 204, 0, 0] X slices_S64x256x56x56_S64x52x56x56_0_204_0_0)⟩] concatenates_S64x51x56x56_S64x51x56x56_S64x51x56x56_S64x51x56x56_S64x52x56x56_S64x256x56x56_d1

/-- The index array of the two scatters at position 0 holds 0 everywhere. -/
theorem idx0 (k : S1.Idx) :
    ((broadcastInDim S1 ![] bcast_S_S1 (constantI S_ 32 0#32) : IVec S1 32) k).toInt = (((⟨0, by omega⟩ : Fin 56)).val : Int) := by
  show (0#32 : BitVec 32).toInt = ((0 : Nat) : Int)
  decide

/-- The index array of the two scatters at position 55 holds 55 everywhere. -/
theorem idx55 (k : S1.Idx) :
    ((broadcastInDim S1 ![] bcast_S_S1 (constantI S_ 32 55#32) : IVec S1 32) k).toInt = (((⟨55, by omega⟩ : Fin 56)).val : Int) := by
  show (55#32 : BitVec 32).toInt = ((55 : Nat) : Int)
  decide

/-- The update array of every scatter holds the zero word everywhere. -/
theorem upd0 (j : S64x51x56.Idx) :
    (broadcastInDim S64x51x56 ![] bcast_S_S64x51x56 (constant (F := F) S_ .f32 0x00000000#32)) j = zeroF (F := F) := rfl

/-- The reference's result is the shifted argument array. -/
theorem result_eq (X : (⟨S64x256x56x56, .f32⟩ : BufTy).Contents (Elt F)) :
    result X = shifted 64 (zeroF (F := F)) X := by
  funext i
  obtain ⟨b, c, h, w, rfl⟩ : ∃ (b : Fin 64) (c : Fin 256) (h w : Fin 56), i = ix4 b c h w :=
    ⟨i 0, i 1, i 2, i 3, eq_ix4 i⟩
  unfold result
  by_cases h0 : c.val < 51
  · obtain ⟨c', rfl⟩ := chan_split 0 51 (by decide) c (by omega) (by have := c.isLt; omega)
    rw [shifted_group0]
    refine (join_group0 _ _ _ _ _ _ b c' h w).trans ?_
    refine (rollSetTop_apply scatter_S64x51x56x56_S1_S64x51x56_012_2_2_0_wf _ ⟨0, by omega⟩ rfl idx0
      (zeroF (F := F)) _ upd0 _ _ _ _ b c' h w).trans ?_
    rw [slice_eq_slab 0 51 (by omega) X]
  · by_cases h1 : c.val < 102
    · obtain ⟨c', rfl⟩ := chan_split 51 51 (by decide) c (by omega) (by have := c.isLt; omega)
      rw [shifted_group1]
      refine (join_group1 _ _ _ _ _ _ b c' h w).trans ?_
      refine (rollSetRight_apply scatter_S64x51x56x56_S1_S64x51x56_012_3_3_0_wf _ ⟨55, by omega⟩ rfl idx55
        (zeroF (F := F)) _ upd0 _ _ _ _ b c' h w).trans ?_
      rw [slice_eq_slab 51 51 (by omega) X]
    · by_cases h2 : c.val < 153
      · obtain ⟨c', rfl⟩ := chan_split 102 51 (by decide) c (by omega) (by have := c.isLt; omega)
        rw [shifted_group2]
        refine (join_group2 _ _ _ _ _ _ b c' h w).trans ?_
        refine (rollSetBottom_apply scatter_S64x51x56x56_S1_S64x51x56_012_2_2_0_wf _ ⟨55, by omega⟩ rfl idx55
          (zeroF (F := F)) _ upd0 _ _ _ _ b c' h w).trans ?_
        rw [slice_eq_slab 102 51 (by omega) X]
      · by_cases h3 : c.val < 204
        · obtain ⟨c', rfl⟩ := chan_split 153 51 (by decide) c (by omega) (by have := c.isLt; omega)
          rw [shifted_group3]
          refine (join_group3 _ _ _ _ _ _ b c' h w).trans ?_
          refine (rollSetLeft_apply scatter_S64x51x56x56_S1_S64x51x56_012_3_3_0_wf _ ⟨0, by omega⟩ rfl idx0
            (zeroF (F := F)) _ upd0 _ _ _ _ b c' h w).trans ?_
          rw [slice_eq_slab 153 51 (by omega) X]
        · obtain ⟨c', rfl⟩ := chan_split 204 52 (by decide) c (by omega) (by have := c.isLt; omega)
          rw [shifted_group4]
          refine (join_group4 _ _ _ _ _ _ b c' h w).trans ?_
          rw [slice_eq_slab 204 52 (by omega) X]

end Cert.ReferenceIdeal.Result

end
-- ==== Proof.RefValue.lean ====
/-
  What the reference's line leaves in its result buffer: the reference's term of the argument array, hence the
  shifted argument array.

  The fold over the 38 operations is read at the result buffer from the last operation down: the join reads the
  four scatters' buffers and the fifth slice's, each scatter reads its roll's buffer and the two constants', each
  roll its two slices', every slice the argument's buffer; an operation that does not write a buffer leaves it as
  it found it. What is left is `Result.result` of the argument's launch contents, which is the shifted array.
-/
import proofs.«112341_j38104949850162_1_alg».proof.Proof.RefRun
import proofs.«112341_j38104949850162_1_alg».proof.Proof.RefShift

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Shift

variable {F : FTy → Type} [FloatOps F]

/-- The join depends on the five buffers' contents only: to know the join it is enough to know each of them. -/
theorem join_congr (W : Valuation τ sig (Elt F))
    (t8 t12 t16 t20 : S64x51x56x56.Idx → Elt F .f32) (t4 : S64x52x56x56.Idx → Elt F .f32)
    (h8 : W (Proc.devRef .tc main_v8) = t8) (h12 : W (Proc.devRef .tc main_v12) = t12)
    (h16 : W (Proc.devRef .tc main_v16) = t16) (h20 : W (Proc.devRef .tc main_v20) = t20)
    (h4 : W (Proc.devRef .tc main_v4) = t4) :
    concatenate S64x256x56x56 1 [⟨S64x51x56x56, W (Proc.devRef .tc main_v8)⟩, ⟨S64x51x56x56, W (Proc.devRef .tc main_v12)⟩, ⟨S64x51x56x56, W (Proc.devRef .tc main_v16)⟩, ⟨S64x51x56x56, W (Proc.devRef .tc main_v20)⟩, ⟨S64x52x56x56, W (Proc.devRef .tc main_v4)⟩] concatenates_S64x51x56x56_S64x51x56x56_S64x51x56x56_S64x51x56x56_S64x52x56x56_S64x256x56x56_d1
      = concatenate S64x256x56x56 1 [⟨S64x51x56x56, t8⟩, ⟨S64x51x56x56, t12⟩, ⟨S64x51x56x56, t16⟩, ⟨S64x51x56x56, t20⟩, ⟨S64x52x56x56, t4⟩] concatenates_S64x51x56x56_S64x51x56x56_S64x51x56x56_S64x51x56x56_S64x52x56x56_S64x256x56x56_d1 := by
  subst h8 h12 h16 h20 h4
  rfl

/-- A join of two pieces depends on the two pieces only. -/
theorem pair_congr {α : Type} {t s₁ s₂ : Shape} (a : Fin t.rank) (hc : Shape.Concatenates [s₁, s₂] t a)
    (u₁ u₁' : s₁.Idx → α) (u₂ u₂' : s₂.Idx → α) (h₁ : u₁ = u₁') (h₂ : u₂ = u₂') :
    concatenate t a [⟨s₁, u₁⟩, ⟨s₂, u₂⟩] hc = concatenate t a [⟨s₁, u₁'⟩, ⟨s₂, u₂'⟩] hc := by
  subst h₁ h₂
  rfl

-- the layout operations and the scatter are kept folded: the equation is about which buffer feeds which operation
attribute [local irreducible] Host.scatter concatenate extractStridedSlice broadcastInDim in
set_option maxHeartbeats 1000000 in
/-- The result buffer after the line holds the reference's term of the argument's contents. -/
theorem after_out (V : Valuation τ sig (Elt F)) :
    after (ops (F := F)) V (Proc.devRef .tc main_v21) = Result.result (V (Proc.devRef .tc main_arg0)) := by
  simp only [after_cons, after_nil]
  rw [join_result]
  unfold Result.result
  refine join_congr _ _ _ _ _ _ ?_ ?_ ?_ ?_ ?_
  · simp (disch := decide) only [nullary_result', unary_result', binary_result', ternary_result',
      nullary_result_ne', unary_result_ne', binary_result_ne', ternary_result_ne', nary_result_ne']
    refine congrArg (fun x => Host.scatter _ _ x _ _) (pair_congr _ _ _ _ _ _ ?_ ?_)
    · simp (disch := decide) only [nullary_result', unary_result', binary_result', ternary_result',
      nullary_result_ne', unary_result_ne', binary_result_ne', ternary_result_ne', nary_result_ne']
    · simp (disch := decide) only [nullary_result', unary_result', binary_result', ternary_result',
      nullary_result_ne', unary_result_ne', binary_result_ne', ternary_result_ne', nary_result_ne']
  · simp (disch := decide) only [nullary_result', unary_result', binary_result', ternary_result',
      nullary_result_ne', unary_result_ne', binary_result_ne', ternary_result_ne', nary_result_ne']
    refine congrArg (fun x => Host.scatter _ _ x _ _) (pair_congr _ _ _ _ _ _ ?_ ?_)
    · simp (disch := decide) only [nullary_result', unary_result', binary_result', ternary_result',
      nullary_result_ne', unary_result_ne', binary_result_ne', ternary_result_ne', nary_result_ne']
    · simp (disch := decide) only [nullary_result', unary_result', binary_result', ternary_result',
      nullary_result_ne', unary_result_ne', binary_result_ne', ternary_result_ne', nary_result_ne']
  · simp (disch := decide) only [nullary_result', unary_result', binary_result', ternary_result',
      nullary_result_ne', unary_result_ne', binary_result_ne', ternary_result_ne', nary_result_ne']
    refine congrArg (fun x => Host.scatter _ _ x _ _) (pair_congr _ _ _ _ _ _ ?_ ?_)
    · simp (disch := decide) only [nullary_result', unary_result', binary_result', ternary_result',
      nullary_result_ne', unary_result_ne', binary_result_ne', ternary_result_ne', nary_result_ne']
    · simp (disch := decide) only [nullary_result', unary_result', binary_result', ternary_result',
      nullary_result_ne', unary_result_ne', binary_result_ne', ternary_result_ne', nary_result_ne']
  · simp (disch := decide) only [nullary_result', unary_result', binary_result', ternary_result',
      nullary_result_ne', unary_result_ne', binary_result_ne', ternary_result_ne', nary_result_ne']
    refine congrArg (fun x => Host.scatter _ _ x _ _) (pair_congr _ _ _ _ _ _ ?_ ?_)
    · simp (disch := decide) only [nullary_result', unary_result', binary_result', ternary_result',
      nullary_result_ne', unary_result_ne', binary_result_ne', ternary_result_ne', nary_result_ne']
    · simp (disch := decide) only [nullary_result', unary_result', binary_result', ternary_result',
      nullary_result_ne', unary_result_ne', binary_result_ne', ternary_result_ne', nary_result_ne']
  · simp (disch := decide) only [nullary_result', unary_result', binary_result', ternary_result',
      nullary_result_ne', unary_result_ne', binary_result_ne', ternary_result_ne', nary_result_ne']

/-- … which is the shifted argument array. -/
theorem after_out_shifted (V : Valuation τ sig (Elt F)) :
    after (ops (F := F)) V (Proc.devRef .tc main_v21)
      = shifted 64 (Result.zeroF (F := F)) (V (Proc.devRef .tc main_arg0)) :=
  (after_out V).trans (Result.result_eq _)

end Cert.ReferenceIdeal.Line

end
-- ==== Proof.lean ====
/-
  A channel-grouped spatial shift of a batch of images [64, 256, 56, 56]: the 256 channels fall into four groups of
  51 and a last one of 52; each of the first four is moved by one position along a spatial axis — down, left, up,
  right — with zeros entering at the border, the fifth is copied.

  The kernel does this two images per grid point, by slicing and joining with a strip of zeros; the reference on
  the whole batch, by rolling, overwriting the wrapped-around strip with zeros, and joining. Both compute the one
  function `Cert.Shift.shifted 64 0` of the argument array, element by element, with no arithmetic on the
  elements — so the two results are equal as extended reals whatever the input holds, and the precondition (finite
  inputs) is not used.

  * Kernel: each grid point leaves in its output block the shifted image of its input block
    (Proof/KernelBlock.lean, over the generated run of the body); the 32 blocks tile the output array, so it ends
    as the shifted input array (Proof/KernelArray.lean, over the generated blockwise value leg).
  * Reference: its @main is a line of 38 host operations (Proof/RefRun.lean); read at the result buffer the line
    computes the join of four rolled-and-set slabs and the fifth slab (Proof/RefValue.lean), which is the shifted
    array (Proof/RefShift.lean).
  * The frames of the two kernel programs are the generated ones; the reference's is its run with the result
    dropped. The ideal pass rewrote nothing, so `preserves` is `True`.
-/
import proofs.«112341_j38104949850162_1_alg».proof.Defs
import proofs.«112341_j38104949850162_1_alg».proof.Proof.Gen.Kernel
import proofs.«112341_j38104949850162_1_alg».proof.Proof.Gen.Kernel.Skeleton
import proofs.«112341_j38104949850162_1_alg».proof.Proof.Gen.Kernel.Launch
import proofs.«112341_j38104949850162_1_alg».proof.Proof.Gen.Kernel.Points
import proofs.«112341_j38104949850162_1_alg».proof.Proof.Gen.Kernel.Frame
import proofs.«112341_j38104949850162_1_alg».proof.Proof.Gen.KernelIdeal
import proofs.«112341_j38104949850162_1_alg».proof.Proof.Gen.KernelIdeal.Skeleton
import proofs.«112341_j38104949850162_1_alg».proof.Proof.Gen.KernelIdeal.Launch
import proofs.«112341_j38104949850162_1_alg».proof.Proof.Gen.KernelIdeal.Points
import proofs.«112341_j38104949850162_1_alg».proof.Proof.Gen.KernelIdeal.Frame
import proofs.«112341_j38104949850162_1_alg».proof.Proof.Gen.ReferenceIdeal
import proofs.«112341_j38104949850162_1_alg».proof.Proof.Gen.Pre_finite_inputs
import proofs.«112341_j38104949850162_1_alg».proof.Proof.Gen.KernelIdeal.Value
import proofs.«112341_j38104949850162_1_alg».proof.Proof.KernelArray
import proofs.«112341_j38104949850162_1_alg».proof.Proof.RefRun
import proofs.«112341_j38104949850162_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument alone: the generated frame. -/
theorem frame_kernel : Cert.frame_Kernel := fun m ρ _ => Cert.Kernel.Gen.frame m ρ

/-- The idealized kernel runs and leaves its argument alone: the generated frame. -/
theorem frame_kernelIdeal : Cert.frame_KernelIdeal := fun m ρ _ => Cert.KernelIdeal.Gen.frame m ρ

/-- The reference runs and leaves its argument alone: no operation of its line writes the argument's buffer. -/
theorem frame_referenceIdeal : Cert.frame_ReferenceIdeal := fun m ρ _ =>
  (θ_run Cert.ReferenceIdeal.defs _ _).mono
    (fun _ h c => (h c Cert.ReferenceIdeal.main_arg0).trans (Cert.ReferenceIdeal.Line.after_arg0 _))
    (Cert.ReferenceIdeal.Line.run_line (F := Ideal) m ρ)

/-- The ideal pass rewrote nothing. -/
theorem preserves : Cert.preserves_Kernel_KernelIdeal := trivial

/-- Both programs end with the shifted argument array in their result: the kernel's padding zero and the
    reference's border zero are the same word, and the arguments agree. -/
theorem algebraic : Cert.algebraic_KernelIdeal_ReferenceIdeal := by
  intro m ρ m' ρ' _ hagree
  refine ⟨fun c => Cert.Shift.shifted 64 (Cert.KernelIdeal.Block.zeroF (F := Ideal))
      (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨?_, ?_⟩)
    (Cert.ReferenceIdeal.Line.run_line (F := Ideal) m' ρ')
  · rw [h c Cert.ReferenceIdeal.main_v21, Cert.ReferenceIdeal.Line.after_out_shifted]
    show Cert.Shift.shifted 64 _ (m' ((c.tc : Thread Cert.ReferenceIdeal.nD Cert.ReferenceIdeal.τ).loc Cert.ReferenceIdeal.main_arg0)) = _
    rw [hagree c]
  · exact (h c Cert.ReferenceIdeal.main_arg0).trans (Cert.ReferenceIdeal.Line.after_arg0 _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
